-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S4096x64 : Shape := ⟨2, ![4096, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_arg4 : FVec F S4096x64 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  main_v23

def fn {F : FTy → Type} [FloatOps F] (main_arg0 : FVec F S8192x64 .f32) (main_arg1 : FVec F S8192x64 .f32) (main_arg2 : FVec F S8192x64 .f32) (main_arg3 : FVec F S4096x64 .f32) (main_arg4 : FVec F S4096x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg4 main_v13 main_v16
-- ==== Kernel.lean ====
abbrev S8192x64 : Shape := ⟨2, ![8192, 64]⟩
abbrev S4096x64 : Shape := ⟨2, ![4096, 64]⟩
abbrev S256x64 : Shape := ⟨2, ![256, 64]⟩
abbrev S256x4096 : Shape := ⟨2, ![256, 4096]⟩
abbrev S256 : Shape := ⟨1, ![256]⟩
abbrev S256x1 : Shape := ⟨2, ![256, 1]⟩
abbrev S256x256 : Shape := ⟨2, ![256, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S4096x64, .f32⟩
  | .hbm, ⟨4, _⟩ => ⟨S4096x64, .f32⟩
  | .hbm, ⟨5, _⟩ => ⟨S8192x64, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S4096x64, .f32⟩
  | .local _ .vmem, ⟨7, _⟩ => ⟨S4096x64, .f32⟩
  | .local _ .vmem, ⟨8, _⟩ => ⟨S256x64, .f32⟩
  | .local _ .vmem, ⟨9, _⟩ => ⟨S256x64, .f32⟩
  | .local _ .vmem, ⟨10, _⟩ => ⟨S4096x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S256x64_S256x64_0_0 : ∀ a, (![0, 0] : Fin 2 → Nat) a + S256x64.size a ≤ S256x64.size a
  h_S256x64 : 0 < S256x64.numel
  bitsLt_bf16_f32 : FTy.bits .bf16 < FTy.bits .f32
  reduces_S256x4096_S256 : S256x4096.Reduces [1] S256
  shapeCasts_S256_S256x1 : S256.ShapeCasts S256x1
  broadcasts_S256x1_S256x4096 : S256x1.Broadcasts S256x4096
  iota_S256x256_d0_w32 : S256x256.Iotas .tc 32 [0]
  iota_S256x256_d1_w32 : S256x256.Iotas .tc 32 [1]
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  dot_S256x4096_S256x4096_S256x256_1_1_0_0_n_n_wf : DotDims.WF S256x4096 S256x4096 S256x256 [1] [1] [0] [0] [] []
  dot_S256x256_S256x64_S256x64_1_0_0_1_n_n_wf : DotDims.WF S256x256 S256x64 S256x64 [1] [0] [0] [1] [] []
  dot_S256x4096_S256x64_S4096x64_0_0_1_1_n_n_wf : DotDims.WF S256x4096 S256x64 S4096x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S8192x64.size a
  hwx0_0 : ∀ i : grid0.Coords, EltTy.bits .f32 = 32 ∨ (Rect.block (s := S8192x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S8192x64.size a
  hwx0_1 : ∀ i : grid0.Coords, EltTy.bits .f32 = 32 ∨ (Rect.block (s := S8192x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .f32 = 32 ∨ (Rect.block (s := S8192x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .f32 = 32 ∨ (Rect.block (s := S4096x64) S4096x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x64.size a ≤ S4096x64.size a
  hwx0_4 : ∀ i : grid0.Coords, EltTy.bits .f32 = 32 ∨ (Rect.block (s := S4096x64) S4096x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S8192x64.size a
  hwx0_5 : ∀ i : grid0.Coords, EltTy.bits .f32 = 32 ∨ (Rect.block (s := S8192x64) S256x64.size (cc0_transform_5 i) (hinb0_5 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x4096_S256x64_S4096x64_0_0_1_1_n_n : DotDims S256x4096 S256x64 S4096x64 where
  lhsContracting := [0]
  rhsContracting := [0]
  lhsNonContracting := [1]
  rhsNonContracting := [1]
  lhsBatch := []
  rhsBatch := []
  wf := dot_S256x4096_S256x64_S4096x64_0_0_1_1_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x64 : Shape := ⟨2, ![8192, 64]⟩
abbrev S4096x64 : Shape := ⟨2, ![4096, 64]⟩
abbrev S64x4096 : Shape := ⟨2, ![64, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S4096x8192 : Shape := ⟨2, ![4096, 8192]⟩
abbrev S8192x8192 : Shape := ⟨2, ![8192, 8192]⟩

abbrev nBuf : Space → Nat
  | .hbm => 59
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S4096x64, .f32⟩
  | .hbm, ⟨4, _⟩ => ⟨S4096x64, .f32⟩
  | .hbm, ⟨5, _⟩ => ⟨S64x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x4096, .f32⟩
  | .hbm, ⟨23, _⟩ => ⟨S8192x4096, .f32⟩
  | .hbm, ⟨24, _⟩ => ⟨S64x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x4096, .f32⟩
  | .hbm, ⟨42, _⟩ => ⟨S8192x4096, .f32⟩
  | .hbm, ⟨43, _⟩ => ⟨S4096x8192, .f32⟩
  | .hbm, ⟨44, _⟩ => ⟨S8192x8192, .f32⟩
  | .hbm, ⟨45, _⟩ => ⟨S8192x8192, .i32⟩
  | .hbm, ⟨46, _⟩ => ⟨S_, .i32⟩
  | .hbm, ⟨47, _⟩ => ⟨S8192x8192, .i32⟩
  | .hbm, ⟨48, _⟩ => ⟨S8192x8192, .i32⟩
  | .hbm, ⟨49, _⟩ => ⟨S8192x8192, .i32⟩
  | .hbm, ⟨50, _⟩ => ⟨S8192x8192, .i1⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S8192x64, .f32⟩
  | .hbm, ⟨55, _⟩ => ⟨S8192x64, .f32⟩
  | .hbm, ⟨56, _⟩ => ⟨S8192x64, .f32⟩
  | .hbm, ⟨57, _⟩ => ⟨S8192x64, .f32⟩
  | .hbm, ⟨58, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_cst : Ref sig .tc := ⟨.hbm, 51, rfl⟩
abbrev main_call0_v5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]

class Facts₀ : Prop where
  transposes_S4096x64_S64x4096_1_0 : S4096x64.Transposes [1, 0] S64x4096
  bcast_S_S8192x4096 : S_.BroadcastsInDim S8192x4096 (![] : Fin 0 → Fin S8192x4096.rank)
  reducesTo_S8192x4096_S8192_d1 : S8192x4096.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  transposes_S8192x4096_S4096x8192_1_0 : S8192x4096.Transposes [1, 0] S4096x8192
  bcast_S_S8192x8192 : S_.BroadcastsInDim S8192x8192 (![] : Fin 0 → Fin S8192x8192.rank)
  dot_S8192x64_S64x4096_S8192x4096_1_0_0_1_n_n_wf : DotDims.WF S8192x64 S64x4096 S8192x4096 [1] [0] [0] [1] [] []
  dot_S8192x4096_S4096x8192_S8192x8192_1_0_0_1_n_n_wf : DotDims.WF S8192x4096 S4096x8192 S8192x8192 [1] [0] [0] [1] [] []
  dot_S8192x4096_S4096x64_S8192x64_1_0_0_1_n_n_wf : DotDims.WF S8192x4096 S4096x64 S8192x64 [1] [0] [0] [1] [] []
  dot_S8192x8192_S8192x64_S8192x64_1_0_0_1_n_n_wf : DotDims.WF S8192x8192 S8192x64 S8192x64 [1] [0] [0] [1] [] []

variable [Facts₀]

def dot_S8192x64_S64x4096_S8192x4096_1_0_0_1_n_n : DotDims S8192x64 S64x4096 S8192x4096 where
  lhsContracting := [1]
  rhsContracting := [0]
  lhsNonContracting := [0]
  rhsNonContracting := [1]
  lhsBatch := []
  rhsBatch := []
  wf := dot_S8192x64_S64x4096_S8192x4096_1_0_0_1_n_n_wf
def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf
def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KernelPieces.lean ====
/-
  What a grid point leaves in the output block and in the carried scratch, as the body's arithmetic of its loads.

  At the first grid point the body first stores zeros to the scratch and then runs as at every other point with the
  scratch read back as those zeros; at the other points the scratch holds what the point before left. In both cases
  the output block is the body's output term of the five input blocks and the scratch's contents, and the scratch
  ends at the body's update term of them. Generic in the float instance.
-/
import proofs.«128861_j49134425866264_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later grid point: the output block over the scratch's contents xs0. -/
theorem out_B (c : Dev nD) (i : grid0.Coords) (arg1 : Memref sig .tc .vmem S256x64 .f32) (harg1 : arg1.IsWhole) (arg2 : Memref sig .tc .vmem S256x64 .f32) (harg2 : arg2.IsWhole) (arg3 : Memref sig .tc .vmem S256x64 .f32) (harg3 : arg3.IsWhole) (arg4 : Memref sig .tc .vmem S4096x64 .f32) (harg4 : arg4.IsWhole) (arg5 : Memref sig .tc .vmem S4096x64 .f32) (harg5 : arg5.IsWhole) (arg6 : Memref sig .tc .vmem S256x64 .f32) (harg6 : arg6.IsWhole) (arg7 : Memref sig .tc .vmem S4096x64 .f32) (harg7 : arg7.IsWhole) (hc0 : ¬cond0_0 i) (x0 : Vec F S256x64 .f32) (x1 : Vec F S256x64 .f32) (x2 : Vec F S256x64 .f32) (x3 : Vec F S4096x64 .f32) (x4 : Vec F S4096x64 .f32) (xs0 : Vec F S4096x64 .f32) :
    out0_B_5 c i arg1 harg1 arg2 harg2 arg3 harg3 arg4 harg4 arg5 harg5 arg6 harg6 arg7 harg7 hc0 x0 x1 x2 x3 x4 xs0 = k0_pay3 x2 (k0_pay7 x4) (k0_pay8 x1 x3) (k0_pay9 x0 x3) xs0 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  sl_unfold_words
  rw [View.canon_unit_zero hz]
  simp only [View.readAt_eq_ld, harg1.read_unread, harg2.read_unread, harg3.read_unread, harg4.read_unread, harg5.read_unread, harg7.read_unread, View.ld_unit_zero (S := S256x64) hz, View.ld_unit_zero (S := S4096x64) hz, shapeCast_self]

/-- A later grid point: the scratch after it, over its contents xs0 before. -/
theorem sout_B (c : Dev nD) (i : grid0.Coords) (arg1 : Memref sig .tc .vmem S256x64 .f32) (harg1 : arg1.IsWhole) (arg2 : Memref sig .tc .vmem S256x64 .f32) (harg2 : arg2.IsWhole) (arg3 : Memref sig .tc .vmem S256x64 .f32) (harg3 : arg3.IsWhole) (arg4 : Memref sig .tc .vmem S4096x64 .f32) (harg4 : arg4.IsWhole) (arg5 : Memref sig .tc .vmem S4096x64 .f32) (harg5 : arg5.IsWhole) (arg6 : Memref sig .tc .vmem S256x64 .f32) (harg6 : arg6.IsWhole) (arg7 : Memref sig .tc .vmem S4096x64 .f32) (harg7 : arg7.IsWhole) (hc0 : ¬cond0_0 i) (x0 : Vec F S256x64 .f32) (x1 : Vec F S256x64 .f32) (x2 : Vec F S256x64 .f32) (x3 : Vec F S4096x64 .f32) (x4 : Vec F S4096x64 .f32) (xs0 : Vec F S4096x64 .f32) :
    sout0_B_0 c i arg1 harg1 arg2 harg2 arg3 harg3 arg4 harg4 arg5 harg5 arg6 harg6 arg7 harg7 hc0 x0 x1 x2 x3 x4 xs0 = k0_pay4 x2 (k0_pay7 x4) (k0_pay8 x1 x3) xs0 := by
  unfold sout0_B_0
  rw [View.read_writes_eq_canon _ _ _ (scover0_B_0 c i arg1 harg1 arg2 harg2 arg3 harg3 arg4 harg4 arg5 harg5 arg6 harg6 arg7 harg7 hc0 x0 x1 x2 x3 x4 xs0)]
  unfold kernelRun0_B
  dsimp only
  sl_unfold_words
  rw [View.canon_unit_zero hz]
  simp only [View.readAt_eq_ld, harg1.read_unread, harg2.read_unread, harg3.read_unread, harg4.read_unread, harg5.read_unread, harg7.read_unread, View.ld_unit_zero (S := S256x64) hz, View.ld_unit_zero (S := S4096x64) hz, shapeCast_self]

/-- The first grid point: the output block over the zeros just stored. -/
theorem out_A (c : Dev nD) (i : grid0.Coords) (arg1 : Memref sig .tc .vmem S256x64 .f32) (harg1 : arg1.IsWhole) (arg2 : Memref sig .tc .vmem S256x64 .f32) (harg2 : arg2.IsWhole) (arg3 : Memref sig .tc .vmem S256x64 .f32) (harg3 : arg3.IsWhole) (arg4 : Memref sig .tc .vmem S4096x64 .f32) (harg4 : arg4.IsWhole) (arg5 : Memref sig .tc .vmem S4096x64 .f32) (harg5 : arg5.IsWhole) (arg6 : Memref sig .tc .vmem S256x64 .f32) (harg6 : arg6.IsWhole) (arg7 : Memref sig .tc .vmem S4096x64 .f32) (harg7 : arg7.IsWhole) (hc0 : cond0_0 i) (x0 : Vec F S256x64 .f32) (x1 : Vec F S256x64 .f32) (x2 : Vec F S256x64 .f32) (x3 : Vec F S4096x64 .f32) (x4 : Vec F S4096x64 .f32) :
    out0_A_5 c i arg1 harg1 arg2 harg2 arg3 harg3 arg4 harg4 arg5 harg5 arg6 harg6 arg7 harg7 hc0 x0 x1 x2 x3 x4 = k0_pay3 x2 (k0_pay7 x4) (k0_pay8 x1 x3) (k0_pay9 x0 x3) (k0_pay5 (F := F)) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz, View.readCov_unit_zero (S := S4096x64) _ hz]
  simp only [View.readAt_eq_ld, harg1.read_unread, harg2.read_unread, harg3.read_unread, harg4.read_unread, harg5.read_unread, harg7.read_unread, View.ld_unit_zero (S := S256x64) hz, View.ld_unit_zero (S := S4096x64) hz, shapeCast_self]

/-- The first grid point: the scratch after it, over the zeros just stored. -/
theorem sout_A (c : Dev nD) (i : grid0.Coords) (arg1 : Memref sig .tc .vmem S256x64 .f32) (harg1 : arg1.IsWhole) (arg2 : Memref sig .tc .vmem S256x64 .f32) (harg2 : arg2.IsWhole) (arg3 : Memref sig .tc .vmem S256x64 .f32) (harg3 : arg3.IsWhole) (arg4 : Memref sig .tc .vmem S4096x64 .f32) (harg4 : arg4.IsWhole) (arg5 : Memref sig .tc .vmem S4096x64 .f32) (harg5 : arg5.IsWhole) (arg6 : Memref sig .tc .vmem S256x64 .f32) (harg6 : arg6.IsWhole) (arg7 : Memref sig .tc .vmem S4096x64 .f32) (harg7 : arg7.IsWhole) (hc0 : cond0_0 i) (x0 : Vec F S256x64 .f32) (x1 : Vec F S256x64 .f32) (x2 : Vec F S256x64 .f32) (x3 : Vec F S4096x64 .f32) (x4 : Vec F S4096x64 .f32) :
    sout0_A_0 c i arg1 harg1 arg2 harg2 arg3 harg3 arg4 harg4 arg5 harg5 arg6 harg6 arg7 harg7 hc0 x0 x1 x2 x3 x4 = k0_pay4 x2 (k0_pay7 x4) (k0_pay8 x1 x3) (k0_pay5 (F := F)) := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_cons_unit_zero (S := S4096x64) hz, View.readCov_unit_zero (S := S4096x64) _ hz]
  simp only [View.readAt_eq_ld, harg1.read_unread, harg2.read_unread, harg3.read_unread, harg4.read_unread, harg5.read_unread, harg7.read_unread, View.ld_unit_zero (S := S256x64) hz, View.ld_unit_zero (S := S4096x64) hz, shapeCast_self]

end Cert.KernelIdeal.Pieces

end
-- ==== Proof.LibRealEntries.lean ====
/-
  Reusable lemmas: arrays over the extended reals all of whose entries are real numbers.

  An extended real is either a real number or one of the two infinities.  Sums and products of real numbers are real,
  the cosine and the sine of a real number are real, a quotient of a real number by a non-zero real number is real,
  and the 32-bit float patterns whose exponent field is not all ones denote real numbers.  The operations that only
  re-index an array (a broadcast along named axes, a reshape, a transpose, a concatenation) read each result entry
  from an operand entry, so they carry "every entry is real" from the operands to the result; so do the entrywise
  product, negation, cosine, sine and quotient, and a matrix product (a finite sum of products).

  The last part is the one algebraic law the file is for: for matrices with real entries the product is associative,
  entry by entry, as an identity between extended reals — (A·B)·C = A·(B·C).  Over the extended reals this needs the
  entries to be real: with infinities a product does not distribute over a sum.
-/
import Idealize.ShloMosaic.PureOps.Ideal.Laws
import Idealize.ShloMosaic.Lib.ValueIdx

noncomputable section

namespace Cert.RealEntries

open Idealize.ShloMosaic Idealize.ShloMosaic.ValueIdx

/-! ## Real numbers among the extended reals -/

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A real number divided by a non-zero real number. -/
theorem IsR.div {x y : EReal} (hx : IsR x) {b : ℝ} (hy : y = (b : EReal)) (hb : b ≠ 0) : IsR (Ideal.div x y) := by
  subst hy
  rw [Ideal.div_coe hb]
  exact hx.mul (IsR.coe _)

/-- A 32-bit float pattern whose exponent field is not all ones denotes a real number. -/
theorem isR_ofBits_f32 (w : BitVec 32) (h : (w.extractLsb' 23 8).toNat ≠ 255) : IsR (Ideal.ofBits .f32 w) := by
  show IsR (Ideal.ieee 8 23 w)
  unfold Ideal.ieee
  dsimp only
  rw [if_neg (by norm_num; exact h)]
  split_ifs <;> exact ⟨_, rfl⟩

/-- The pattern of 2.0 denotes the real number 2. -/
theorem ofBits_two : Ideal.ofBits .f32 0x40000000#32 = ((2 : ℝ) : EReal) := by
  simp [Ideal.ofBits, Ideal.ieee, -EReal.coe_mul]; norm_num

/-! ## Arrays of real numbers -/

variable {s t : Shape} {φ : FTy}

/-- Every entry of the array is a real number. -/
def AllReal (x : FVec Ideal s φ) : Prop := ∀ i, IsR (x i)

/-- A broadcast along named axes reads every entry from the operand. -/
theorem AllReal.of_broadcastInDim {x : FVec Ideal s φ} (hx : AllReal x) (dims : Fin s.rank → Fin t.rank)
    (h : s.BroadcastsInDim t dims) : AllReal (φ := φ) (broadcastInDim t dims h x) := by
  intro j; unfold Idealize.ShloMosaic.broadcastInDim; exact hx _

/-- A reshape reads every entry from the operand. -/
theorem AllReal.of_shapeCast {x : FVec Ideal s φ} (hx : AllReal x) (h : s.ShapeCasts t) :
    AllReal (φ := φ) (shapeCast t x h) := by
  intro j; unfold Idealize.ShloMosaic.shapeCast; exact hx _

/-- A transpose reads every entry from the operand. -/
theorem AllReal.of_transpose {x : FVec Ideal s φ} (hx : AllReal x) (perm : List (Fin s.rank)) (h : s.Transposes perm t) :
    AllReal (φ := φ) (transpose t perm x h) := by
  intro j; unfold Idealize.ShloMosaic.transpose; exact hx _

/-- A concatenation reads every entry from one of the pieces. -/
theorem AllReal.of_concatenate (a : Fin t.rank) (xs : List ((s : Shape) × (s.Idx → EReal)))
    (h : Shape.Concatenates (xs.map (·.1)) t a) (hxs : ∀ p ∈ xs, ∀ i, IsR (p.2 i)) :
    AllReal (φ := φ) (concatenate t a xs h) := by
  intro j; unfold Idealize.ShloMosaic.concatenate; dsimp only
  exact hxs _ (List.getElem_mem _) _

/-- A concatenation of two pieces. -/
theorem AllReal.of_concatenate₂ {s₁ s₂ : Shape} (a : Fin t.rank) {x : FVec Ideal s₁ φ} {y : FVec Ideal s₂ φ}
    (hx : AllReal x) (hy : AllReal y) (h : Shape.Concatenates [s₁, s₂] t a) :
    AllReal (φ := φ) (concatenate t a [⟨s₁, x⟩, ⟨s₂, y⟩] h) :=
  AllReal.of_concatenate a [⟨s₁, x⟩, ⟨s₂, y⟩] h fun p hp => by
    simp only [List.mem_cons, List.not_mem_nil, or_false] at hp
    rcases hp with rfl | rfl
    · exact hx
    · exact hy

/-- The entrywise product. -/
theorem AllReal.of_mulf {x y : FVec Ideal s φ} (hx : AllReal x) (hy : AllReal y) : AllReal (mulf x y) :=
  fun i => (hx i).mul (hy i)

/-- The entrywise negation on the host. -/
theorem AllReal.of_hostNegf {x : FVec Ideal s φ} (hx : AllReal x) : AllReal (Host.negf x) :=
  fun i => (hx i).neg

/-- The entrywise cosine on the host. -/
theorem AllReal.of_hostCos {x : FVec Ideal s φ} (hx : AllReal x) : AllReal (Host.cos x) :=
  fun i => (hx i).cos

/-- The entrywise sine on the host. -/
theorem AllReal.of_hostSin {x : FVec Ideal s φ} (hx : AllReal x) : AllReal (Host.sin x) :=
  fun i => (hx i).sin

/-- The entrywise quotient on the host by the splat of the float 2.0. -/
theorem AllReal.of_hostDivTwo {x : FVec Ideal s .f32} (hx : AllReal x) :
    AllReal (Host.divf x (constant (F := Ideal) s .f32 0x40000000#32)) :=
  fun i => (hx i).div ofBits_two (by norm_num)

/-- A table of 32-bit float patterns none of whose exponent fields is all ones. -/
theorem AllReal.ofTable (f : s.Idx → BitVec 32) (h : ∀ i, ((f i).extractLsb' 23 8).toNat ≠ 255) :
    AllReal (φ := .f32) (fun i => (FloatOps.ofBits (F := Ideal) .f32 (f i) : Ideal .f32)) :=
  fun i => isR_ofBits_f32 _ (h i)

/-! ## Matrices of real numbers -/

variable {M K N L : Nat}

/-- A matrix product of two matrices of real numbers, read at each entry as the sum over the inner index, has real
    entries. -/
theorem allReal_of_sum {x : FVec Ideal ⟨2, ![M, N]⟩ φ} (a : Fin M → Fin K → EReal) (b : Fin K → Fin N → EReal)
    (ha : ∀ p k, IsR (a p k)) (hb : ∀ k q, IsR (b k q))
    (hx : ∀ p q, x (ix2 p q) = ∑ k : Fin K, a p k * b k q) : AllReal x := by
  intro j
  obtain ⟨p, q, rfl⟩ : ∃ (p : Fin M) (q : Fin N), j = ix2 p q := ⟨j 0, j 1, eq_ix2 j⟩
  rw [hx]
  exact IsR.sum _ _ fun k _ => (ha _ k).mul (hb k _)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the product of matrices of real numbers, entry by entry, over the extended reals:
    Σ_j (Σ_i A[p,i]·B[i,j])·C[j,q] = Σ_i A[p,i]·(Σ_j B[i,j]·C[j,q]). -/
theorem matmul_assoc (A : Fin M → Fin K → EReal) (B : Fin K → Fin L → EReal) (C : Fin L → Fin N → EReal)
    (hA : ∀ p i, IsR (A p i)) (hB : ∀ i j, IsR (B i j)) (hC : ∀ j q, IsR (C j q)) (p : Fin M) (q : Fin N) :
    ∑ j : Fin L, (∑ i : Fin K, A p i * B i j) * C j q = ∑ i : Fin K, A p i * ∑ j : Fin L, B i j * C j q := by
  choose a ha using hA
  choose b hb using hB
  choose c hc using hC
  simp only [ha, hb, hc, ← EReal.coe_mul, ← coe_sum]
  rw [EReal.coe_eq_coe_iff]
  simp only [Finset.sum_mul, Finset.mul_sum]
  rw [Finset.sum_comm]
  exact Finset.sum_congr rfl fun i _ => Finset.sum_congr rfl fun j _ => mul_assoc _ _ _

end Cert.RealEntries

end
-- ==== Proof.LibSoftmaxTriangle.lean ====
/-
  Reusable lemmas over the extended reals, generic in every extent: (1) a softmax row — its definition from the row
  maximum started at −∞ and the exponentials' sum — and that a non-empty row of real numbers has a real softmax; (2) sums
  over a block of consecutive rows of a longer array (`sum_block`, `sum_below_succ`); (3) a strictly lower triangular
  product Σ_s [s < t]·(Σ_m a[m]·a_k[s,m])·d[s] split, at a row t = lo + p of the block starting at lo, into the
  in-block masked part and the row a applied to the accumulated state Σ_{s < lo} a_k[s,m]·d[s] (`result_split`), for
  real entries. It is the mathematics shared by the two programs of this certificate:

  Both programs compute, for token rows t and memory slots m,
      a_k[t,m] = softmax_m (Σ_j k[t,j]·K[m,j] · w),    a_q[t,m] = softmax_m (Σ_j q[t,j]·K[m,j] · w),
      d[s,c]   = Σ_m a_k[s,m]·V[m,c] − v[s,c],
      r[t,c]   = Σ_m a_q[t,m]·V[m,c] − Σ_s [s < t]·(Σ_m a_q[t,m]·a_k[s,m])·d[s,c].
  One of them forms the strictly lower triangular token-by-token matrix whole; the other walks the rows in blocks
  of B consecutive tokens, keeps the sum S[m,c] = Σ_{s < lo} a_k[s,m]·d[s,c] over all earlier blocks, and writes
      r[t,c] = (Σ_m a_q[t,m]·V[m,c] − Σ_{s in the block, s < t} (Σ_m a_q[t,m]·a_k[s,m])·d[s,c]) − Σ_m a_q[t,m]·S[m,c].
  The two agree when every entry is a real number: the rows before the block contribute
      Σ_{s < lo} (Σ_m a_q[t,m]·a_k[s,m])·d[s,c] = Σ_m a_q[t,m]·(Σ_{s < lo} a_k[s,m]·d[s,c])
  by associativity of the product of real matrices, which fails at the infinities; a softmax row of real numbers
  is a row of real numbers, so finite inputs keep every entry real.
-/
import proofs.«128861_j49134425866264_1_alg».proof.Proof.LibRealEntries

noncomputable section

namespace Cert.Attn

open Idealize.ShloMosaic Cert.RealEntries

/-! ## A softmax row -/

/-- The largest entry of a row, the maximum started from −∞. -/
def rowMax {n : ℕ} (l : Fin n → EReal) : EReal := max ⊥ ((Finset.univ : Finset (Fin n)).fold max ⊥ l)

/-- The softmax of a row: exp (l m − max l) over the sum of those exponentials. -/
def soft {n : ℕ} (l : Fin n → EReal) (m : Fin n) : EReal :=
  Ideal.div (Ideal.exp (l m - rowMax l)) (∑ j : Fin n, Ideal.exp (l j - rowMax l))

/-- The largest entry of a non-empty row of real numbers is a real number. -/
theorem isR_rowMax {n : ℕ} (hn : 0 < n) (l : Fin n → EReal) (hl : ∀ j, IsR (l j)) : IsR (rowMax l) := by
  unfold rowMax
  rw [max_eq_right bot_le]
  have h1 : (Finset.univ : Finset (Fin n)).fold max ⊥ l ≠ ⊥ := by
    apply ne_of_gt
    rw [Finset.lt_fold_max]
    right
    refine ⟨⟨0, hn⟩, Finset.mem_univ _, ?_⟩
    obtain ⟨r, hr⟩ := hl ⟨0, hn⟩
    rw [hr]; exact EReal.bot_lt_coe r
  have h2 : (Finset.univ : Finset (Fin n)).fold max ⊥ l ≠ ⊤ := by
    apply ne_of_lt
    rw [Finset.fold_max_lt]
    refine ⟨bot_lt_top, fun j _ => ?_⟩
    obtain ⟨r, hr⟩ := hl j
    rw [hr]; exact EReal.coe_lt_top r
  exact ⟨_, (EReal.coe_toReal h2 h1).symm⟩

/-- The softmax of a non-empty row of real numbers is a row of real numbers: the exponentials are positive reals,
    so their sum is a non-zero real. -/
theorem isR_soft {n : ℕ} (hn : 0 < n) (l : Fin n → EReal) (hl : ∀ j, IsR (l j)) (m : Fin n) : IsR (soft l m) := by
  obtain ⟨M, hM⟩ := isR_rowMax hn l hl
  choose r hr using hl
  unfold soft
  rw [hM]
  have he : ∀ j, Ideal.exp (l j - (M : EReal)) = ((Real.exp (r j - M) : ℝ) : EReal) := fun j => by
    rw [hr j, ← EReal.coe_sub]; rfl
  simp only [he]
  rw [← coe_sum]
  refine IsR.div (IsR.coe _) rfl (ne_of_gt ?_)
  haveI : Nonempty (Fin n) := ⟨⟨0, hn⟩⟩
  exact Finset.sum_pos (fun j _ => Real.exp_pos _) Finset.univ_nonempty

/-- A difference of real numbers. -/
theorem IsR.sub' {x y : EReal} (hx : IsR x) (hy : IsR y) : IsR (x - y) := by
  obtain ⟨a, rfl⟩ := hx; obtain ⟨b, rfl⟩ := hy; exact ⟨a - b, (EReal.coe_sub a b).symm⟩

/-- Taking away a sum of two real numbers is taking them away one after the other. -/
theorem sub_add_of_isR {x y z : EReal} (hx : IsR x) (hy : IsR y) (hz : IsR z) : x - (y + z) = x - y - z := by
  obtain ⟨a, rfl⟩ := hx; obtain ⟨b, rfl⟩ := hy; obtain ⟨c, rfl⟩ := hz
  rw [← EReal.coe_add, ← EReal.coe_sub, ← EReal.coe_sub, ← EReal.coe_sub, EReal.coe_eq_coe_iff]
  ring

/-! ## Sums over a block of consecutive rows -/

/-- Row s' of the block that starts at row lo, as a row of the whole array. -/
def blockRow {T B : ℕ} (lo : ℕ) (h : lo + B ≤ T) (s' : Fin B) : Fin T := ⟨lo + s'.val, by have := s'.isLt; omega⟩

/-- A sum over all rows of a function that vanishes outside the block [lo, lo + B) is the sum over the block. -/
theorem sum_block {T B : ℕ} (lo : ℕ) (h : lo + B ≤ T) (f : Fin T → EReal) :
    ∑ s : Fin T, (if lo ≤ s.val ∧ s.val < lo + B then f s else 0) = ∑ s' : Fin B, f (blockRow lo h s') := by
  classical
  let e : Fin B ↪ Fin T := ⟨blockRow lo h, fun a b hab => by
    have h1 : lo + a.val = lo + b.val := congrArg Fin.val hab
    exact Fin.ext (by omega)⟩
  have hmap : ∑ s' : Fin B, f (blockRow lo h s') = ∑ s ∈ (Finset.univ : Finset (Fin B)).map e, f s :=
    (Finset.sum_map _ e f).symm
  rw [hmap]
  have hsub : ∑ s ∈ (Finset.univ : Finset (Fin B)).map e, (if lo ≤ s.val ∧ s.val < lo + B then f s else 0)
      = ∑ s : Fin T, (if lo ≤ s.val ∧ s.val < lo + B then f s else 0) := by
    refine Finset.sum_subset (Finset.subset_univ _) fun s _ hs => ?_
    rw [if_neg]
    intro hc
    refine hs (Finset.mem_map.mpr ⟨⟨s.val - lo, by omega⟩, Finset.mem_univ _, Fin.ext ?_⟩)
    show lo + (s.val - lo) = s.val
    omega
  rw [← hsub]
  refine Finset.sum_congr rfl fun s hs => ?_
  obtain ⟨s', _, rfl⟩ := Finset.mem_map.mp hs
  rw [if_pos]
  have := s'.isLt
  exact ⟨Nat.le_add_right _ _, Nat.add_lt_add_left this _⟩

/-- The sum over the rows below lo + B is the sum over the rows below lo plus the sum over the block. -/
theorem sum_below_succ {T B : ℕ} (lo : ℕ) (h : lo + B ≤ T) (f : Fin T → EReal) :
    ∑ s : Fin T, (if s.val < lo + B then f s else 0)
      = ∑ s : Fin T, (if s.val < lo then f s else 0) + ∑ s' : Fin B, f (blockRow lo h s') := by
  rw [← sum_block lo h f, ← Finset.sum_add_distrib]
  refine Finset.sum_congr rfl fun s _ => ?_
  by_cases h1 : s.val < lo
  · rw [if_pos (by omega), if_pos h1, if_neg (by omega), add_zero]
  · by_cases h2 : s.val < lo + B
    · rw [if_pos h2, if_neg h1, if_pos ⟨by omega, h2⟩, zero_add]
    · rw [if_neg h2, if_neg h1, if_neg (by omega), add_zero]

/-! ## The rearrangement -/

/-- For real entries, the rows below lo, each weighted through its own product with the row a, contribute what the
    row a makes of their accumulated sum: associativity of the product of real matrices. -/
theorem below_eq_state {T n : ℕ} (a : Fin n → EReal) (ak : Fin T → Fin n → EReal) (d : Fin T → EReal)
    (ha : ∀ m, IsR (a m)) (hak : ∀ s m, IsR (ak s m)) (hd : ∀ s, IsR (d s)) (lo : ℕ) :
    ∑ s : Fin T, (if s.val < lo then ∑ m, a m * ak s m else 0) * d s
      = ∑ m, a m * ∑ s : Fin T, (if s.val < lo then ak s m * d s else 0) := by
  have key := matmul_assoc (M := 1) (K := n) (L := T) (N := 1) (fun _ m => a m)
    (fun m s => if s.val < lo then ak s m else 0) (fun s _ => d s) (fun _ m => ha m)
    (fun m s => by by_cases h : s.val < lo
                   · rw [if_pos h]; exact hak s m
                   · rw [if_neg h]; exact IsR.zero)
    (fun s _ => hd s) 0 0
  have e1 : ∀ s : Fin T, (if s.val < lo then ∑ m, a m * ak s m else 0) * d s
      = (∑ m, a m * (if s.val < lo then ak s m else 0)) * d s := fun s => by
    by_cases h : s.val < lo
    · simp only [if_pos h]
    · simp only [if_neg h, mul_zero, Finset.sum_const_zero]
  have e2 : ∀ m, a m * ∑ s : Fin T, (if s.val < lo then ak s m * d s else 0)
      = a m * ∑ s : Fin T, (if s.val < lo then ak s m else 0) * d s := fun m => by
    refine congrArg (a m * ·) (Finset.sum_congr rfl fun s _ => ?_)
    by_cases h : s.val < lo
    · simp only [if_pos h]
    · simp only [if_neg h, zero_mul]
  simp only [e1, e2]
  exact key

/-- The masked sum over all earlier rows splits at lo into the rows of the current block and the rows below it. -/
theorem masked_split {T : ℕ} (A d : Fin T → EReal) (lo t : ℕ) (hlo : lo ≤ t) :
    ∑ s : Fin T, (if s.val < t then A s else 0) * d s
      = ∑ s : Fin T, (if lo ≤ s.val ∧ s.val < t then A s else 0) * d s
        + ∑ s : Fin T, (if s.val < lo then A s else 0) * d s := by
  rw [← Finset.sum_add_distrib]
  refine Finset.sum_congr rfl fun s _ => ?_
  by_cases h1 : s.val < lo
  · rw [if_pos (by omega), if_neg (by omega), if_pos h1, zero_mul, zero_add]
  · by_cases h2 : s.val < t
    · rw [if_pos h2, if_pos ⟨by omega, h2⟩, if_neg h1, zero_mul, add_zero]
    · rw [if_neg h2, if_neg (by omega), if_neg h1, zero_mul, add_zero]

/-- The rows of the current block, masked below t = lo + p, summed over all rows, as a sum over the block with the
    mask read inside the block. -/
theorem block_masked {T B : ℕ} (lo : ℕ) (h : lo + B ≤ T) (A d : Fin T → EReal) (p : Fin B) :
    ∑ s : Fin T, (if lo ≤ s.val ∧ s.val < lo + p.val then A s else 0) * d s
      = ∑ s' : Fin B, (if s'.val < p.val then A (blockRow lo h s') else 0) * d (blockRow lo h s') := by
  have hb := sum_block lo h (fun s => (if s.val < lo + p.val then A s else 0) * d s)
  have e : ∀ s : Fin T, (if lo ≤ s.val ∧ s.val < lo + p.val then A s else 0) * d s
      = (if lo ≤ s.val ∧ s.val < lo + B then (if s.val < lo + p.val then A s else 0) * d s else 0) := fun s => by
    have := p.isLt
    by_cases h1 : lo ≤ s.val ∧ s.val < lo + p.val
    · rw [if_pos h1, if_pos ⟨h1.1, by omega⟩, if_pos h1.2]
    · by_cases h2 : lo ≤ s.val ∧ s.val < lo + B
      · rw [if_neg h1, if_pos h2, if_neg (by omega)]
      · rw [if_neg h1, if_neg h2, zero_mul]
  simp only [e]
  rw [hb]
  refine Finset.sum_congr rfl fun s' _ => ?_
  by_cases h3 : s'.val < p.val
  · rw [if_pos h3, if_pos (show (blockRow lo h s').val < lo + p.val from Nat.add_lt_add_left h3 _)]
  · rw [if_neg h3, if_neg (show ¬ (blockRow lo h s').val < lo + p.val from fun hc => h3 (Nat.lt_of_add_lt_add_left hc))]

/-- THE LAW THAT JOINS THE TWO SIDES, at one entry. With x the product of the row a with the value column, A s the
    product of a with row s of a_k and d the error column — all real —, the whole strictly lower triangular sum at
    row t = lo + p is the in-block masked sum, then the accumulated state of the earlier blocks, taken away in turn. -/
theorem result_split {T B n : ℕ} (lo : ℕ) (h : lo + B ≤ T) (a : Fin n → EReal) (ak : Fin T → Fin n → EReal)
    (d : Fin T → EReal) (x : EReal) (ha : ∀ m, IsR (a m)) (hak : ∀ s m, IsR (ak s m)) (hd : ∀ s, IsR (d s))
    (hx : IsR x) (p : Fin B) :
    x - ∑ s : Fin T, (if s.val < lo + p.val then ∑ m, a m * ak s m else 0) * d s
      = (x - ∑ s' : Fin B, (if s'.val < p.val then ∑ m, a m * ak (blockRow lo h s') m else 0) * d (blockRow lo h s'))
        - ∑ m, a m * ∑ s : Fin T, (if s.val < lo then ak s m * d s else 0) := by
  have hA : ∀ s, IsR (∑ m, a m * ak s m) := fun s => IsR.sum _ _ fun m _ => (ha m).mul (hak s m)
  rw [masked_split (fun s => ∑ m, a m * ak s m) d lo (lo + p.val) (Nat.le_add_right _ _),
    block_masked lo h (fun s => ∑ m, a m * ak s m) d p, below_eq_state a ak d ha hak hd lo]
  refine sub_add_of_isR hx ?_ ?_
  · refine IsR.sum _ _ fun s' _ => IsR.mul ?_ (hd _)
    by_cases h3 : s'.val < p.val
    · rw [if_pos h3]; exact hA _
    · rw [if_neg h3]; exact IsR.zero
  · refine IsR.sum _ _ fun m _ => (ha m).mul (IsR.sum _ _ fun s _ => ?_)
    by_cases h4 : s.val < lo
    · rw [if_pos h4]; exact (hak s m).mul (hd s)
    · rw [if_neg h4]; exact IsR.zero

end Cert.Attn

end
-- ==== Proof.LibMatmulNT.lean ====
/-
  A reusable lemma: the product of a matrix with the TRANSPOSE of another, read at an entry.

  A `tpu.matmul` whose dimension numbers contract the LAST axis of both operands — an [M,K] left operand and an
  [N,K] right operand, result [M,N] — accumulated into zeros is, at the ideal instance and at the entry (p, q),
      Σ_k lhs[p,k] · rhs[q,k],
  the sum over k : Fin K.  The statement is generic in M, K, N and in the operands' float formats, and holds for any
  dimension record equal to the library's `DotDims.transposedRhs M K N`.
-/
import Idealize.ShloMosaic.PureOps.Ideal.Laws
import Idealize.ShloMosaic.Lib.ValueIdx

noncomputable section

namespace Cert.MatmulNT

open Idealize.ShloMosaic Idealize.ShloMosaic.ValueIdx

variable {M K N : Nat}

/-- The left operand is read in the result's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand is read in the row numbered by the result's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- A matrix times the transpose of another, into zeros, at the entry (p, q): Σ_k lhs[p,k] · rhs[q,k]. -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    matmul d prec lhs rhs (constant (F := Ideal) ⟨2, ![M, N]⟩ .f32 0x00000000#32) (ix2 p q)
      = ∑ k : Fin K, lhs (ix2 p k) * rhs (ix2 q k) := by
  subst hd
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k :=
    funext fun a => Fin.ext (by
      match a with
      | ⟨0, _⟩ => exact rhs_row _ _
      | ⟨1, _⟩ => exact ((DotDims.transposedRhs M K N).rhsIdx_val_of_single rfl _ _).trans hk)
  rw [el, er]

end Cert.MatmulNT

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.KernelSoftmax.lean ====
/-
  The kernel body's arithmetic, read at an entry, part 1: the two softmax blocks.

  For a block x of 256 token rows and the 4096 memory keys Km, the body forms the logits
      L[p,m] = (Σ_j x[p,j]·Km[m,j]) · w        (w the word of 1/8),
  the row maxima, the exponentials E[p,m] = exp (L[p,m] − max_m L[p,m]), the row sums, and the quotient
  E[p,m] / Σ_m E[p,m] — the softmax of row p of L. Changes of float format are the identity over the extended reals.
-/
import proofs.«128861_j49134425866264_1_alg».proof.Proof.Gen.KernelIdeal.Skeleton
import proofs.«128861_j49134425866264_1_alg».proof.Proof.LibSoftmaxTriangle
import proofs.«128861_j49134425866264_1_alg».proof.Proof.LibMatmulNT
import proofs.«128861_j49134425866264_1_alg».proof.Proof.LibSlabLayout
import proofs.«128861_j49134425866264_1_alg».proof.Proof.LibKeepdimsColumn

noncomputable section

namespace Cert.KernelIdeal.Block

open Cert.KernelIdeal Cert.KernelIdeal.Gen
open Idealize.ShloMosaic Idealize.ShloMosaic.ValueIdx Cert.Attn

/-- The word 0xFF800000 denotes −∞. -/
theorem ofBits_ninf : Ideal.ofBits .f32 0xFF800000#32 = ⊥ := by
  simp [Ideal.ofBits, Ideal.ieee]

/-- The logits of a block of token rows against the memory keys, at (p, m). -/
def lg (x : Vec Ideal S256x64 .f32) (Km : Vec Ideal S4096x64 .f32) (p : Fin 256) (m : Fin 4096) : EReal :=
  (∑ j : Fin 64, x (ix2 p j) * Km (ix2 m j)) * Ideal.ofBits .f32 0x3E000000#32

/-- The printed logits: the product with the transposed keys, scaled. -/
def logits (x : Vec Ideal S256x64 .f32) (Km : Vec Ideal S4096x64 .f32) : FVec Ideal S256x4096 .f32 :=
  mulf (matmul dot_S256x64_S4096x64_S256x4096_1_1_0_0_n_n none (truncf .bf16 x Facts₀.bitsLt_bf16_f32) (k0_pay6 Km)
      (constant S256x4096 .f32 0x00000000#32))
    (broadcast S256x4096 (Scalar.ofBits .f32 0x3E000000#32))

theorem logits_apply (x : Vec Ideal S256x64 .f32) (Km : Vec Ideal S4096x64 .f32) (p : Fin 256) (m : Fin 4096) :
    logits x Km (ix2 p m) = lg x Km p m := by
  unfold logits lg
  rw [mulf_apply, broadcast_apply]
  refine congrArg (· * Ideal.ofBits .f32 0x3E000000#32) ?_
  exact Cert.MatmulNT.matmul_zero_apply (M := 256) (K := 64) (N := 4096) _ rfl none _ _ p m

/-- The printed row maximum spread back over the row. -/
def bmax (L : FVec Ideal S256x4096 .f32) : FVec Ideal S256x4096 .f32 :=
  broadcastTo S256x4096
    (shapeCast S256x1
      (maximumf (broadcast S256 (Scalar.ofBits .f32 0xFF800000#32))
        (multiReduction .maximumf [1] S256 L 0xFF800000#32 Facts₀.reduces_S256x4096_S256 (.inl rfl) rfl))
      Facts₀.shapeCasts_S256_S256x1)
    Facts₀.broadcasts_S256x1_S256x4096

theorem bmax_apply (L : FVec Ideal S256x4096 .f32) (p : Fin 256) (m : Fin 4096) :
    bmax L (ix2 p m) = rowMax (fun m' => L (ix2 p m')) := by
  unfold bmax
  refine (Cert.KeepdimsColumn.broadcastTo_a1_ab_apply _ Facts₀.broadcasts_S256x1_S256x4096 p m).trans ?_
  refine (Cert.KeepdimsColumn.shapeCast_a_a1_apply _ Facts₀.shapeCasts_S256_S256x1 p (0 : Fin 1)).trans ?_
  rw [maximumf_apply, broadcast_apply]
  unfold rowMax
  refine congrArg₂ max ofBits_ninf ?_
  refine (Cert.SlabLayout.rowMax_apply (a := 256) (b := 4096) L 0xFF800000#32 Facts₀.reduces_S256x4096_S256 (.inl rfl) rfl p).trans ?_
  rw [ofBits_ninf]

/-- The printed exponentials of the row-shifted logits. -/
def bexp (L : FVec Ideal S256x4096 .f32) : FVec Ideal S256x4096 .f32 := exp (subf L (bmax L))

theorem bexp_apply (L : FVec Ideal S256x4096 .f32) (p : Fin 256) (m : Fin 4096) :
    bexp L (ix2 p m) = Ideal.exp (L (ix2 p m) - rowMax (fun m' => L (ix2 p m'))) := by
  show Ideal.exp (subf L (bmax L) (ix2 p m)) = _
  rw [subf_apply, bmax_apply]

/-- The printed row sums spread back over the row. -/
def bsum (E : FVec Ideal S256x4096 .f32) : FVec Ideal S256x4096 .f32 :=
  broadcastTo S256x4096
    (shapeCast S256x1 (multiReduction .add [1] S256 E 0x00000000#32 Facts₀.reduces_S256x4096_S256 (.inl rfl) rfl)
      Facts₀.shapeCasts_S256_S256x1)
    Facts₀.broadcasts_S256x1_S256x4096

theorem bsum_apply (E : FVec Ideal S256x4096 .f32) (p : Fin 256) (m : Fin 4096) :
    bsum E (ix2 p m) = ∑ j : Fin 4096, E (ix2 p j) := by
  unfold bsum
  refine (Cert.KeepdimsColumn.broadcastTo_a1_ab_apply _ Facts₀.broadcasts_S256x1_S256x4096 p m).trans ?_
  refine (Cert.KeepdimsColumn.shapeCast_a_a1_apply _ Facts₀.shapeCasts_S256_S256x1 p (0 : Fin 1)).trans ?_
  exact Cert.SlabLayout.rowSum_apply (a := 256) (b := 4096) E 0x00000000#32 Facts₀.reduces_S256x4096_S256 (.inl rfl) rfl p

/-- The softmax block of the logits L, at (p, m): the softmax of row p. -/
theorem softmax_apply (L : FVec Ideal S256x4096 .f32) (p : Fin 256) (m : Fin 4096) :
    divf (bexp L) (bsum (bexp L)) (ix2 p m) = soft (fun m' => L (ix2 p m')) m := by
  rw [divf_apply, bsum_apply, bexp_apply]
  unfold soft
  refine congrArg (Ideal.div _) (Finset.sum_congr rfl fun j _ => ?_)
  exact bexp_apply L p j

/-- The attention weights of the block's key rows ARE the softmax block of their logits. -/
theorem pay8_eq (v4 : Vec Ideal S256x64 .f32) (v6 : Vec Ideal S4096x64 .f32) :
    k0_pay8 v4 v6 = divf (bexp (logits v4 v6)) (bsum (bexp (logits v4 v6))) := rfl

/-- The exponentials of the block's query rows. -/
theorem pay9_eq (v3 : Vec Ideal S256x64 .f32) (v6 : Vec Ideal S4096x64 .f32) :
    k0_pay9 v3 v6 = bexp (logits v3 v6) := rfl

/-- The attention weights of the block's rows x, as the softmax of their logits' rows. -/
def att (x : Vec Ideal S256x64 .f32) (Km : Vec Ideal S4096x64 .f32) (p : Fin 256) (m : Fin 4096) : EReal :=
  soft (lg x Km p) m

theorem pay8_apply (v4 : Vec Ideal S256x64 .f32) (v6 : Vec Ideal S4096x64 .f32) (p : Fin 256) (m : Fin 4096) :
    k0_pay8 v4 v6 (ix2 p m) = att v4 v6 p m := by
  rw [pay8_eq, softmax_apply]
  unfold att
  exact congrArg (fun l => soft l m) (funext fun m' => logits_apply v4 v6 p m')

/-- The query rows' weights: the printed quotient of the exponentials by their row sums. -/
theorem aq_apply (v3 : Vec Ideal S256x64 .f32) (v6 : Vec Ideal S4096x64 .f32) (p : Fin 256) (m : Fin 4096) :
    divf (k0_pay9 v3 v6) (bsum (k0_pay9 v3 v6)) (ix2 p m) = att v3 v6 p m := by
  rw [pay9_eq, softmax_apply]
  unfold att
  exact congrArg (fun l => soft l m) (funext fun m' => logits_apply v3 v6 p m')

end Cert.KernelIdeal.Block

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibMatmulTN.lean ====
/-
  A matrix product that contracts the FIRST axis of both operands (A-transposed times B), read at an entry.

  For a [K,M] left operand A and a [K,N] right operand B, contracted over their common axis 0 into a zero
  accumulator, the result at (p, q) is  ∑ k < K, A[k,p] · B[k,q]  over the extended reals: the textbook product
  AᵀB, whatever the operands' float formats (a change of format is the identity there).  Stated for any dimension
  record equal to `dims K M N` (contracting axes [0] and [0], free axes [1] and [1], no batch axes), generic in
  K, M, N.  This is the kernel spelling of jnp.einsum('sw,sh->wh', …).
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.MatmulTN

/-- The dimension numbers ⟨[0], [0], [1], [1], [], []⟩: a K×M operand and a K×N operand, both contracted on
    axis 0, giving M×N. -/
def dims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : ℕ}

/-- The left operand is read at (contraction position, result row). -/
theorem lhs_0 (j : (⟨2, ![M, N]⟩ : Shape).Idx) (q : (dims K M N).contr.Idx) :
    ((dims K M N).lhsIdx j q 0).val = (q ⟨0, by rw [DotDims.rank_contr]; exact Nat.one_pos⟩).val :=
  (dims K M N).lhsIdx_val_of_single rfl j q
theorem lhs_1 (j : (⟨2, ![M, N]⟩ : Shape).Idx) (q : (dims K M N).contr.Idx) :
    ((dims K M N).lhsIdx j q 1).val = (j 0).val := by
  unfold DotDims.lhsIdx
  rw [dif_neg (show ¬(1 : Fin 2) ∈ (dims K M N).lhsBatch from List.not_mem_nil),
    dif_pos (show (1 : Fin 2) ∈ (dims K M N).lhsNonContracting from List.mem_singleton.mpr rfl)]
  rfl
/-- The right operand is read at (contraction position, result column). -/
theorem rhs_0 (j : (⟨2, ![M, N]⟩ : Shape).Idx) (q : (dims K M N).contr.Idx) :
    ((dims K M N).rhsIdx j q 0).val = (q ⟨0, by rw [DotDims.rank_contr]; exact Nat.one_pos⟩).val :=
  (dims K M N).rhsIdx_val_of_single rfl j q
theorem rhs_1 (j : (⟨2, ![M, N]⟩ : Shape).Idx) (q : (dims K M N).contr.Idx) :
    ((dims K M N).rhsIdx j q 1).val = (j 1).val := by
  unfold DotDims.rhsIdx
  rw [dif_neg (show ¬(1 : Fin 2) ∈ (dims K M N).rhsBatch from List.not_mem_nil),
    dif_pos (show (1 : Fin 2) ∈ (dims K M N).rhsNonContracting from List.mem_singleton.mpr rfl)]
  rfl

/-- A product contracting axis 0 of both operands, into zeros, at (p, q): the sum over the contracted position k
    of A[k,p] · B[k,q]. -/
theorem matmul_apply {φ₁ φ₂ : FTy} (D : DotDims ⟨2, ![K, M]⟩ ⟨2, ![K, N]⟩ ⟨2, ![M, N]⟩) (hD : D = dims K M N)
    (prec : Option ContractPrecision) (A : FVec Ideal ⟨2, ![K, M]⟩ φ₁) (B : FVec Ideal ⟨2, ![K, N]⟩ φ₂)
    (p : Fin M) (q : Fin N) :
    matmul D prec A B (constant (F := Ideal) ⟨2, ![M, N]⟩ .f32 0x00000000#32) (ix2 p q)
      = ∑ k : Fin K, A (ix2 k p) * B (ix2 k q) := by
  subst hD
  simp only [matmul]
  rw [Ideal.matmul_constant_zero_apply, ← Equiv.sum_comp (contrEquiv1 (dims K M N) K rfl rfl).symm]
  refine Finset.sum_congr rfl fun k _ => ?_
  have hk := contrEquiv1_symm_val (dims K M N) K rfl rfl k
  have el : (dims K M N).lhsIdx (ix2 p q) ((contrEquiv1 (dims K M N) K rfl rfl).symm k) = ix2 k p :=
    funext fun a => Fin.ext (by
      match a with
      | ⟨0, _⟩ => exact (lhs_0 _ _).trans hk
      | ⟨1, _⟩ => exact lhs_1 _ _)
  have er : (dims K M N).rhsIdx (ix2 p q) ((contrEquiv1 (dims K M N) K rfl rfl).symm k) = ix2 k q :=
    funext fun a => Fin.ext (by
      match a with
      | ⟨0, _⟩ => exact (rhs_0 _ _).trans hk
      | ⟨1, _⟩ => exact rhs_1 _ _)
  rw [el, er]

end Cert.MatmulTN

end
-- ==== Proof.LibMaskWords.lean ====
/-
  Reusable lemmas: the two spellings of a strictly-lower-triangle mask (jnp.tril(·, −1) on the host, row > column in a
  kernel), on 32-bit words, as an if-then-else on natural numbers.

  One program compares the row number with the column number, signed "greater than"; the other adds the word −1 to
  the row number and compares signed "greater or equal". For row and column numbers below 2³¹ both say: the column
  is strictly below the row. A select on that bit is an if-then-else on the inequality of natural numbers.
-/
import Idealize.ShloMosaic.Lib.ValueIdx

namespace Cert.MaskWords

open Idealize.ShloMosaic

/-- A natural number below 2³¹, as a 32-bit word read signed, is itself. -/
theorem toInt_ofNat_small (n : ℕ) (h : n < 2147483648) : (BitVec.ofNat 32 n).toInt = (n : ℤ) := by
  have h1 : (BitVec.ofNat 32 n).toNat = n := by
    rw [BitVec.toNat_ofNat]; exact Nat.mod_eq_of_lt (by omega)
  rw [BitVec.toInt_eq_toNat_cond, h1]
  have : 2 * n < 2 ^ 32 := by norm_num; omega
  rw [if_pos this]

/-- Adding the word −1 to a natural number below 2³¹ gives, read signed, its predecessor as an integer. -/
theorem toInt_ofNat_add_neg_one (n : ℕ) (h : n < 2147483648) :
    (BitVec.ofNat 32 n + 4294967295#32).toInt = (n : ℤ) - 1 := by
  rw [BitVec.toInt_add, toInt_ofNat_small n h]
  have h2 : (4294967295#32 : BitVec 32).toInt = -1 := by decide
  rw [h2]
  have h3 : ((2 : ℕ) ^ 32 : ℤ) = 4294967296 := by norm_num
  rw [Int.bmod_def]
  push_cast
  omega

/-- A select on the bit of a decidable proposition is the if-then-else on it. -/
theorem select_ofBool {α : Type} (b : Bool) (x y : α) : Scalar.select (BitVec.ofBool b) x y = if b = true then x else y := by
  cases b
  · exact ValueIdx.select_zero x y
  · exact ValueIdx.select_one x y

/-- Signed "row greater than column" on small numbers. -/
theorem select_sgt {α : Type} (p s : ℕ) (hp : p < 2147483648) (hs : s < 2147483648) (x y : α) :
    Scalar.select (IntOp.cmpi .sgt (BitVec.ofNat 32 p) (BitVec.ofNat 32 s)) x y = if s < p then x else y := by
  have e : IntOp.cmpi .sgt (BitVec.ofNat 32 p) (BitVec.ofNat 32 s) = BitVec.ofBool (decide (s < p)) := by
    show BitVec.ofBool ((BitVec.ofNat 32 s).slt (BitVec.ofNat 32 p)) = _
    refine congrArg BitVec.ofBool ?_
    rw [BitVec.slt_eq_decide, toInt_ofNat_small s hs, toInt_ofNat_small p hp]
    exact decide_eq_decide.mpr Nat.cast_lt
  rw [e, select_ofBool]
  simp only [decide_eq_true_eq]

/-- Signed "row plus the word −1, greater or equal column" on small numbers. -/
theorem select_sge_pred {α : Type} (t s : ℕ) (ht : t < 2147483648) (hs : s < 2147483648) (x y : α) :
    Scalar.select (IntOp.cmpi .sge (BitVec.ofNat 32 t + 4294967295#32) (BitVec.ofNat 32 s)) x y
      = if s < t then x else y := by
  have e : IntOp.cmpi .sge (BitVec.ofNat 32 t + 4294967295#32) (BitVec.ofNat 32 s) = BitVec.ofBool (decide (s < t)) := by
    show BitVec.ofBool ((BitVec.ofNat 32 s).sle (BitVec.ofNat 32 t + 4294967295#32)) = _
    refine congrArg BitVec.ofBool ?_
    rw [BitVec.sle_eq_decide, toInt_ofNat_small s hs, toInt_ofNat_add_neg_one t ht]
    exact decide_eq_decide.mpr (by omega)
  rw [e, select_ofBool]
  simp only [decide_eq_true_eq]

end Cert.MaskWords
-- ==== Proof.KernelStores.lean ====
/-
  The kernel body's arithmetic, read at an entry, part 2: what a grid point stores.

  With a_k the block's key weights (256 × 4096), E the exponentials of the query rows, V the memory values and S the
  running state (4096 × 64), the body forms the query weights a_q = E / Σ_m E, the error block
      d[s,c] = Σ_m a_k[s,m]·V[m,c] − v[s,c],
  the in-block token-by-token products G[p,s] = Σ_m a_q[p,m]·a_k[s,m] kept strictly below the diagonal, and stores
      out[p,c]  = (Σ_m a_q[p,m]·V[m,c] − Σ_s [s < p]·G[p,s]·d[s,c]) − Σ_m a_q[p,m]·S[m,c]     (the output block),
      S'[m,c]   = S[m,c] + Σ_s a_k[s,m]·d[s,c]                                                   (the new state).
-/
import proofs.«128861_j49134425866264_1_alg».proof.Proof.KernelSoftmax
import proofs.«128861_j49134425866264_1_alg».proof.Proof.LibMatmulNN
import proofs.«128861_j49134425866264_1_alg».proof.Proof.LibMatmulTN
import proofs.«128861_j49134425866264_1_alg».proof.Proof.LibMaskWords
import Idealize.ShloMosaic.Lib.Pipeline.Value

noncomputable section

namespace Cert.KernelIdeal.Block

open Cert.KernelIdeal Cert.KernelIdeal.Gen
open Idealize.ShloMosaic Idealize.ShloMosaic.ValueIdx Cert.Attn

/-- The error block at (s, c). -/
theorem pay2_apply (v5 : Vec Ideal S256x64 .f32) (v11 : FVec Ideal S4096x64 .bf16) (v25 : FVec Ideal S256x4096 .f32)
    (s : Fin 256) (c : Fin 64) :
    k0_pay2 v5 v11 v25 (ix2 s c) = (∑ m : Fin 4096, v25 (ix2 s m) * v11 (ix2 m c)) - v5 (ix2 s c) := by
  unfold k0_pay2
  rw [truncf_apply, subf_apply]
  refine congrArg (· - v5 (ix2 s c)) ?_
  exact Cert.MatmulNN.matmul_zero_apply (M := 256) (K := 4096) (N := 64) _ rfl none (k0_pay1 v25) v11 s c

/-- The new state at (m, c): the old state plus the block's contribution. -/
theorem pay4_apply (v5 : Vec Ideal S256x64 .f32) (v11 : FVec Ideal S4096x64 .bf16) (v25 : FVec Ideal S256x4096 .f32)
    (v61 : Vec Ideal S4096x64 .f32) (m : Fin 4096) (c : Fin 64) :
    k0_pay4 v5 v11 v25 v61 (ix2 m c)
      = v61 (ix2 m c) + ∑ s : Fin 256, v25 (ix2 s m) * k0_pay2 v5 v11 v25 (ix2 s c) := by
  unfold k0_pay4
  rw [shapeCast_self, addf_apply]
  refine congrArg (v61 (ix2 m c) + ·) ?_
  exact Cert.MatmulTN.matmul_apply (K := 256) (M := 4096) (N := 64) _ rfl none (k0_pay1 v25) (k0_pay2 v5 v11 v25) m c

/-- The state the first grid point starts from: zero. -/
theorem pay5_apply (i : S4096x64.Idx) : k0_pay5 (F := Ideal) i = 0 := by
  unfold k0_pay5
  rw [shapeCast_self, broadcast_apply]
  exact Ideal.ofBits_zero_f32

/-- The memory values pass through their change of format unchanged. -/
theorem pay7_apply (v7 : Vec Ideal S4096x64 .f32) (i : S4096x64.Idx) : k0_pay7 v7 i = v7 i := rfl

/-- The query weights in the matrix unit's format. -/
def aqb (v35 : FVec Ideal S256x4096 .f32) : FVec Ideal S256x4096 .bf16 :=
  truncf .bf16 (divf v35 (bsum v35)) Facts₀.bitsLt_bf16_f32

/-- The in-block token-by-token products. -/
def gram (v35 v25 : FVec Ideal S256x4096 .f32) : FVec Ideal S256x256 .f32 :=
  matmul dot_S256x4096_S256x4096_S256x256_1_1_0_0_n_n none (aqb v35) (k0_pay1 v25) (constant S256x256 .f32 0x00000000#32)

theorem gram_apply (v35 v25 : FVec Ideal S256x4096 .f32) (p s : Fin 256) :
    gram v35 v25 (ix2 p s) = ∑ m : Fin 4096, divf v35 (bsum v35) (ix2 p m) * v25 (ix2 s m) :=
  Cert.MatmulNT.matmul_zero_apply (M := 256) (K := 4096) (N := 256) _ rfl none (aqb v35) (k0_pay1 v25) p s

/-- The products kept strictly below the diagonal, zero elsewhere. -/
def masked (G : FVec Ideal S256x256 .f32) : FVec Ideal S256x256 .bf16 :=
  truncf .bf16
    (select (cmpi .sgt (iota .tc S256x256 32 [0] Facts₀.iota_S256x256_d0_w32) (iota .tc S256x256 32 [1] Facts₀.iota_S256x256_d1_w32))
      G (broadcast S256x256 (Scalar.ofBits .f32 0x00000000#32)))
    Facts₀.bitsLt_bf16_f32

theorem masked_apply (G : FVec Ideal S256x256 .f32) (p s : Fin 256) :
    masked G (ix2 p s) = if s.val < p.val then G (ix2 p s) else 0 := by
  unfold masked
  rw [truncf_apply, select_apply, broadcast_apply]
  show Scalar.select (IntOp.cmpi .sgt (iota .tc S256x256 32 [0] Facts₀.iota_S256x256_d0_w32 (ix2 p s))
      (iota .tc S256x256 32 [1] Facts₀.iota_S256x256_d1_w32 (ix2 p s))) _ _ = _
  rw [iota_single_apply, iota_single_apply]
  have hp := p.isLt
  have hs := s.isLt
  refine (Cert.MaskWords.select_sgt p.val s.val (by omega) (by omega) _ _).trans ?_
  by_cases h : s.val < p.val
  · rw [if_pos h, if_pos h]
  · rw [if_neg h, if_neg h]; exact Ideal.ofBits_zero_f32

/-- The output block is the value product less the masked in-block part less the state part. -/
theorem pay3_eq (v5 : Vec Ideal S256x64 .f32) (v11 : FVec Ideal S4096x64 .bf16) (v25 v35 : FVec Ideal S256x4096 .f32)
    (v53 : Vec Ideal S4096x64 .f32) :
    k0_pay3 v5 v11 v25 v35 v53
      = subf
          (subf
            (matmul dot_S256x4096_S4096x64_S256x64_1_0_0_1_n_n none (aqb v35) v11 (constant S256x64 .f32 0x00000000#32))
            (matmul dot_S256x256_S256x64_S256x64_1_0_0_1_n_n none (masked (gram v35 v25)) (k0_pay2 v5 v11 v25)
              (constant S256x64 .f32 0x00000000#32)))
          (matmul dot_S256x4096_S4096x64_S256x64_1_0_0_1_n_n none (aqb v35) (truncf .bf16 v53 Facts₀.bitsLt_bf16_f32)
            (constant S256x64 .f32 0x00000000#32)) := rfl

/-- The output block at (p, c). -/
theorem pay3_apply (v5 : Vec Ideal S256x64 .f32) (v11 : FVec Ideal S4096x64 .bf16) (v25 v35 : FVec Ideal S256x4096 .f32)
    (v53 : Vec Ideal S4096x64 .f32) (p : Fin 256) (c : Fin 64) :
    k0_pay3 v5 v11 v25 v35 v53 (ix2 p c)
      = ((∑ m : Fin 4096, divf v35 (bsum v35) (ix2 p m) * v11 (ix2 m c))
          - ∑ s : Fin 256, (if s.val < p.val then ∑ m : Fin 4096, divf v35 (bsum v35) (ix2 p m) * v25 (ix2 s m) else 0)
              * k0_pay2 v5 v11 v25 (ix2 s c))
        - ∑ m : Fin 4096, divf v35 (bsum v35) (ix2 p m) * v53 (ix2 m c) := by
  rw [pay3_eq, subf_apply, subf_apply]
  have h1 := Cert.MatmulNN.matmul_zero_apply (M := 256) (K := 4096) (N := 64)
    dot_S256x4096_S4096x64_S256x64_1_0_0_1_n_n rfl none (aqb v35) v11 p c
  have h2 := Cert.MatmulNN.matmul_zero_apply (M := 256) (K := 256) (N := 64)
    dot_S256x256_S256x64_S256x64_1_0_0_1_n_n rfl none (masked (gram v35 v25)) (k0_pay2 v5 v11 v25) p c
  have h3 := Cert.MatmulNN.matmul_zero_apply (M := 256) (K := 4096) (N := 64)
    dot_S256x4096_S4096x64_S256x64_1_0_0_1_n_n rfl none (aqb v35) (truncf .bf16 v53 Facts₀.bitsLt_bf16_f32) p c
  refine congrArg₂ (· - ·) (congrArg₂ (· - ·) h1 (h2.trans ?_)) h3
  refine Finset.sum_congr rfl fun s _ => congrArg (· * k0_pay2 v5 v11 v25 (ix2 s c)) ?_
  rw [masked_apply, gram_apply]

end Cert.KernelIdeal.Block

end
-- ==== Proof.AttnArrays.lean ====
/-
  The result as ONE function of the five argument arrays, entry by entry, and the running state as a function of the
  arrays and of how many token rows have been absorbed.

  q, k, v are the 8192 × 64 token arrays, Km and Vm the 4096 × 64 memory keys and values, w the word of 1/8:
      lgA x Km [t,m]  = (Σ_j x[t,j]·Km[m,j]) · w,        attA x Km [t,·] = softmax of row t of lgA,
      errA [s,c]      = Σ_m attA k [s,m]·Vm[m,c] − v[s,c],
      stateA lo [m,c] = Σ_{s < lo} attA k [s,m]·errA[s,c],
      resA [t,c]      = Σ_m attA q [t,m]·Vm[m,c] − Σ_s [s < t]·(Σ_m attA q [t,m]·attA k [s,m])·errA[s,c].
  For arrays of real numbers every one of these is a real number, and resA at row lo + p of a block splits into the
  in-block part and the state part (LibSoftmaxTriangle's result_split).
-/
import proofs.«128861_j49134425866264_1_alg».proof.Proof.LibSoftmaxTriangle

noncomputable section

namespace Cert.Attn

open Idealize.ShloMosaic Idealize.ShloMosaic.ValueIdx Cert.RealEntries

/-- A token array and a memory array, as functions of a two-coordinate index. -/
abbrev Tok := (⟨2, ![8192, 64]⟩ : Shape).Idx → EReal
abbrev Mem := (⟨2, ![4096, 64]⟩ : Shape).Idx → EReal

def lgA (x : Tok) (Km : Mem) (t : Fin 8192) (mm : Fin 4096) : EReal :=
  (∑ j : Fin 64, x (ix2 t j) * Km (ix2 mm j)) * Ideal.ofBits .f32 0x3E000000#32

def attA (x : Tok) (Km : Mem) (t : Fin 8192) (mm : Fin 4096) : EReal := soft (lgA x Km t) mm

def errA (k v : Tok) (Km Vm : Mem) (s : Fin 8192) (c : Fin 64) : EReal :=
  (∑ mm : Fin 4096, attA k Km s mm * Vm (ix2 mm c)) - v (ix2 s c)

def stateA (k v : Tok) (Km Vm : Mem) (lo : ℕ) (mm : Fin 4096) (c : Fin 64) : EReal :=
  ∑ s : Fin 8192, if s.val < lo then attA k Km s mm * errA k v Km Vm s c else 0

def resA (q k v : Tok) (Km Vm : Mem) (t : Fin 8192) (c : Fin 64) : EReal :=
  (∑ mm : Fin 4096, attA q Km t mm * Vm (ix2 mm c))
    - ∑ s : Fin 8192, (if s.val < t.val then ∑ mm : Fin 4096, attA q Km t mm * attA k Km s mm else 0) * errA k v Km Vm s c

/-- The result array. -/
def resArr (q k v : Tok) (Km Vm : Mem) : Tok :=
  fun i => resA q k v Km Vm ⟨(i 0).val, (i 0).isLt⟩ ⟨(i 1).val, (i 1).isLt⟩

theorem resArr_ix2 (q k v : Tok) (Km Vm : Mem) (t : Fin 8192) (c : Fin 64) :
    resArr q k v Km Vm (ix2 t c) = resA q k v Km Vm t c := rfl

theorem lgA_def (x : Tok) (Km : Mem) (t : Fin 8192) (mm : Fin 4096) :
    lgA x Km t mm = (∑ j : Fin 64, x (ix2 t j) * Km (ix2 mm j)) * Ideal.ofBits .f32 0x3E000000#32 := rfl
theorem attA_def (x : Tok) (Km : Mem) (t : Fin 8192) (mm : Fin 4096) : attA x Km t mm = soft (lgA x Km t) mm := rfl
theorem errA_def (k v : Tok) (Km Vm : Mem) (s : Fin 8192) (c : Fin 64) :
    errA k v Km Vm s c = (∑ mm : Fin 4096, attA k Km s mm * Vm (ix2 mm c)) - v (ix2 s c) := rfl
theorem resA_def (q k v : Tok) (Km Vm : Mem) (t : Fin 8192) (c : Fin 64) :
    resA q k v Km Vm t c = (∑ mm : Fin 4096, attA q Km t mm * Vm (ix2 mm c))
      - ∑ s : Fin 8192, (if s.val < t.val then ∑ mm : Fin 4096, attA q Km t mm * attA k Km s mm else 0) * errA k v Km Vm s c := rfl

/-! ## Real arrays give real entries -/

/-- The word of 1/8 denotes a real number. -/
theorem isR_scale : IsR (Ideal.ofBits .f32 0x3E000000#32) := isR_ofBits_f32 _ (by decide)

theorem isR_lgA (x : Tok) (Km : Mem) (hx : ∀ i, IsR (x i)) (hK : ∀ i, IsR (Km i)) (t : Fin 8192) (mm : Fin 4096) :
    IsR (lgA x Km t mm) :=
  (IsR.sum _ _ fun j _ => (hx _).mul (hK _)).mul isR_scale

theorem isR_attA (x : Tok) (Km : Mem) (hx : ∀ i, IsR (x i)) (hK : ∀ i, IsR (Km i)) (t : Fin 8192) (mm : Fin 4096) :
    IsR (attA x Km t mm) :=
  isR_soft (by norm_num) _ (fun j => isR_lgA x Km hx hK t j) mm

theorem isR_errA (k v : Tok) (Km Vm : Mem) (hk : ∀ i, IsR (k i)) (hv : ∀ i, IsR (v i)) (hK : ∀ i, IsR (Km i))
    (hV : ∀ i, IsR (Vm i)) (s : Fin 8192) (c : Fin 64) : IsR (errA k v Km Vm s c) :=
  IsR.sub' (IsR.sum _ _ fun mm _ => (isR_attA k Km hk hK s mm).mul (hV _)) (hv _)

/-! ## The state, block by block -/

theorem stateA_zero (k v : Tok) (Km Vm : Mem) (mm : Fin 4096) (c : Fin 64) : stateA k v Km Vm 0 mm c = 0 :=
  Finset.sum_eq_zero fun s _ => if_neg (Nat.not_lt_zero _)

theorem stateA_succ (k v : Tok) (Km Vm : Mem) (lo : ℕ) (h : lo + 256 ≤ 8192) (mm : Fin 4096) (c : Fin 64) :
    stateA k v Km Vm (lo + 256) mm c
      = stateA k v Km Vm lo mm c
        + ∑ s' : Fin 256, attA k Km (blockRow lo h s') mm * errA k v Km Vm (blockRow lo h s') c :=
  sum_below_succ lo h fun s => attA k Km s mm * errA k v Km Vm s c

/-! ## The result at a row of a block -/

theorem resA_split (q k v : Tok) (Km Vm : Mem) (hq : ∀ i, IsR (q i)) (hk : ∀ i, IsR (k i)) (hv : ∀ i, IsR (v i))
    (hK : ∀ i, IsR (Km i)) (hV : ∀ i, IsR (Vm i)) (lo : ℕ) (h : lo + 256 ≤ 8192) (p : Fin 256) (c : Fin 64) :
    resA q k v Km Vm (blockRow lo h p) c
      = ((∑ mm : Fin 4096, attA q Km (blockRow lo h p) mm * Vm (ix2 mm c))
          - ∑ s' : Fin 256, (if s'.val < p.val then
                ∑ mm : Fin 4096, attA q Km (blockRow lo h p) mm * attA k Km (blockRow lo h s') mm else 0)
              * errA k v Km Vm (blockRow lo h s') c)
        - ∑ mm : Fin 4096, attA q Km (blockRow lo h p) mm * stateA k v Km Vm lo mm c :=
  result_split lo h (attA q Km (blockRow lo h p)) (attA k Km) (fun s => errA k v Km Vm s c)
    (∑ mm : Fin 4096, attA q Km (blockRow lo h p) mm * Vm (ix2 mm c))
    (fun mm => isR_attA q Km hq hK _ mm) (fun s mm => isR_attA k Km hk hK s mm)
    (fun s => isR_errA k v Km Vm hk hv hK hV s c)
    (IsR.sum _ _ fun mm _ => (isR_attA q Km hq hK _ mm).mul (hV _)) p

end Cert.Attn

end
-- ==== Proof.KernelStep.lean ====
/-
  One grid point of the kernel against the whole arrays.

  At the point whose block starts at token row lo, the body's blocks are rows lo … lo + 255 of q, k, v and the whole
  of the memory keys and values, and the scratch holds the state of the rows below lo. Then what the body stores in
  the output block is the result's rows lo … lo + 255 (the law of LibSoftmaxTriangle, through AttnArrays.resA_split), and what
  it stores in the scratch is the state of the rows below lo + 256.
-/
import proofs.«128861_j49134425866264_1_alg».proof.Proof.KernelStores
import proofs.«128861_j49134425866264_1_alg».proof.Proof.AttnArrays

noncomputable section

namespace Cert.KernelIdeal.Block

open Cert.KernelIdeal Cert.KernelIdeal.Gen
open Idealize.ShloMosaic Idealize.ShloMosaic.ValueIdx Cert.Attn Cert.RealEntries

variable (x0 x1 x2 : Vec Ideal S256x64 .f32) (x3 x4 : Vec Ideal S4096x64 .f32) (q k v : Tok) (Km Vm : Mem)
  (lo : ℕ) (h : lo + 256 ≤ 8192)

/-- The attention weights of a block of rows are the whole array's at those rows. -/
theorem att_rows (x : Vec Ideal S256x64 .f32) (X : Tok) (hx : ∀ p j, x (ix2 p j) = X (ix2 (blockRow lo h p) j))
    (h3 : ∀ i, x3 i = Km i) (p : Fin 256) (mm : Fin 4096) :
    att x x3 p mm = attA X Km (blockRow lo h p) mm := by
  unfold att
  rw [attA_def]
  refine congrArg (fun l => soft l mm) (funext fun m' => ?_)
  unfold lg
  rw [lgA_def]
  refine congrArg (· * Ideal.ofBits .f32 0x3E000000#32) (Finset.sum_congr rfl fun j _ => ?_)
  rw [hx, h3]

/-- The error block is the whole error array at the block's rows. -/
theorem pay2_rows (hx1 : ∀ p j, x1 (ix2 p j) = k (ix2 (blockRow lo h p) j))
    (hx2 : ∀ p j, x2 (ix2 p j) = v (ix2 (blockRow lo h p) j)) (h3 : ∀ i, x3 i = Km i) (h4 : ∀ i, x4 i = Vm i)
    (s : Fin 256) (c : Fin 64) :
    k0_pay2 x2 (k0_pay7 x4) (k0_pay8 x1 x3) (ix2 s c) = errA k v Km Vm (blockRow lo h s) c := by
  rw [pay2_apply, errA_def]
  refine congrArg₂ (· - ·) (Finset.sum_congr rfl fun mm _ => ?_) (hx2 s c)
  rw [pay8_apply, pay7_apply, att_rows x3 Km lo h x1 k hx1 h3, h4]

/-- The output block the point stores: the result's rows lo … lo + 255. -/
theorem out_step (S : Vec Ideal S4096x64 .f32) (hq : ∀ i, IsR (q i)) (hk : ∀ i, IsR (k i)) (hv : ∀ i, IsR (v i))
    (hK : ∀ i, IsR (Km i)) (hV : ∀ i, IsR (Vm i))
    (hx0 : ∀ p j, x0 (ix2 p j) = q (ix2 (blockRow lo h p) j)) (hx1 : ∀ p j, x1 (ix2 p j) = k (ix2 (blockRow lo h p) j))
    (hx2 : ∀ p j, x2 (ix2 p j) = v (ix2 (blockRow lo h p) j)) (h3 : ∀ i, x3 i = Km i) (h4 : ∀ i, x4 i = Vm i)
    (hS : ∀ mm c, S (ix2 mm c) = stateA k v Km Vm lo mm c) (p : Fin 256) (c : Fin 64) :
    k0_pay3 x2 (k0_pay7 x4) (k0_pay8 x1 x3) (k0_pay9 x0 x3) S (ix2 p c) = resA q k v Km Vm (blockRow lo h p) c := by
  rw [pay3_apply, resA_split q k v Km Vm hq hk hv hK hV lo h p c]
  have haq : ∀ mm, divf (k0_pay9 x0 x3) (bsum (k0_pay9 x0 x3)) (ix2 p mm) = attA q Km (blockRow lo h p) mm :=
    fun mm => (aq_apply x0 x3 p mm).trans (att_rows x3 Km lo h x0 q hx0 h3 p mm)
  have hak : ∀ (s : Fin 256) (mm : Fin 4096), k0_pay8 x1 x3 (ix2 s mm) = attA k Km (blockRow lo h s) mm :=
    fun s mm => (pay8_apply x1 x3 s mm).trans (att_rows x3 Km lo h x1 k hx1 h3 s mm)
  have hd : ∀ s : Fin 256, k0_pay2 x2 (k0_pay7 x4) (k0_pay8 x1 x3) (ix2 s c) = errA k v Km Vm (blockRow lo h s) c :=
    fun s => pay2_rows x1 x2 x3 x4 k v Km Vm lo h hx1 hx2 h3 h4 s c
  have h7 : ∀ mm : Fin 4096, k0_pay7 x4 (ix2 mm c) = Vm (ix2 mm c) := fun mm => (pay7_apply x4 _).trans (h4 _)
  simp only [haq, hak, hd, h7, hS]

/-- The scratch the point leaves: the state of the rows below lo + 256. -/
theorem state_step (S : Vec Ideal S4096x64 .f32)
    (hx1 : ∀ p j, x1 (ix2 p j) = k (ix2 (blockRow lo h p) j))
    (hx2 : ∀ p j, x2 (ix2 p j) = v (ix2 (blockRow lo h p) j)) (h3 : ∀ i, x3 i = Km i) (h4 : ∀ i, x4 i = Vm i)
    (hS : ∀ mm c, S (ix2 mm c) = stateA k v Km Vm lo mm c) (mm : Fin 4096) (c : Fin 64) :
    k0_pay4 x2 (k0_pay7 x4) (k0_pay8 x1 x3) S (ix2 mm c) = stateA k v Km Vm (lo + 256) mm c := by
  rw [pay4_apply, stateA_succ k v Km Vm lo h mm c, hS]
  refine congrArg (stateA k v Km Vm lo mm c + ·) (Finset.sum_congr rfl fun s _ => ?_)
  rw [pay8_apply, att_rows x3 Km lo h x1 k hx1 h3, pay2_rows x1 x2 x3 x4 k v Km Vm lo h hx1 hx2 h3 h4]

end Cert.KernelIdeal.Block

end
-- ==== Proof.KernelValue.lean ====
/-
  The kernel's result array after its run, as one function of the argument arrays.

  Grid point t works on token rows 256·t … 256·t + 255: its three token windows are those rows of q, k, v, its two
  memory windows the whole memory arrays. By induction on the point, the scratch after point t holds the state of the
  rows below 256·(t + 1) and the output block of point t holds the result's rows 256·t … 256·t + 255 (one grid point
  against the whole arrays: KernelStep); each point writes its block back to its own rows, the 32 blocks cover the
  array, so the array ends at the result array. Real inputs are needed, for the law that joins the state to the
  triangular sum.
-/
import proofs.«128861_j49134425866264_1_alg».proof.Proof.Gen.KernelIdeal.Value
import proofs.«128861_j49134425866264_1_alg».proof.Proof.KernelPieces
import proofs.«128861_j49134425866264_1_alg».proof.Proof.KernelStep

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Block
open Idealize.ShloMosaic.ValueIdx Cert.Attn Cert.RealEntries

variable (m : (ℓ : Loc nD τ sig) → Buf (Elt Ideal) ℓ) (ρ : Dev nD → PrngReg)

/-- The rows of grid point n lie inside the token arrays. -/
theorem hlo (n : ℕ) (h : n < cfg0.N) : 256 * n + 256 ≤ 8192 := by
  have hN : cfg0.N = 32 := N_0
  omega

/-- The printed index maps, decided over the grid: the token windows and the output move one block of rows per
    point, the memory windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem iblk0_at (c : Dev nD) (t : Fin cfg0.N) (p : Fin 256) (j : Fin 64) :
    iblk m c 0 t (ix2 p j) = (V m c main_arg0 : Tok) (ix2 (blockRow (256 * t.val) (hlo t.val t.isLt) p) j) := by
  show V m c main_arg0 (((cfg0.win 0).blk t).view.emb (ix2 p j)) = _
  obtain ⟨e00, e01, e10, e11, e20, e21, e30, e31, e40, e41, e50, e51⟩ := idx_facts t
  refine congrArg (V m c main_arg0) (funext fun a => Fin.ext ?_)
  match a with
  | ⟨0, _⟩ => show win0_0.index t (0 : Fin 2) * 256 + 1 * p.val = 256 * t.val + p.val; rw [e00]; omega
  | ⟨1, _⟩ => show win0_0.index t (1 : Fin 2) * 64 + 1 * j.val = j.val; rw [e01]; omega

theorem iblk1_at (c : Dev nD) (t : Fin cfg0.N) (p : Fin 256) (j : Fin 64) :
    iblk m c 1 t (ix2 p j) = (V m c main_arg1 : Tok) (ix2 (blockRow (256 * t.val) (hlo t.val t.isLt) p) j) := by
  show V m c main_arg1 (((cfg0.win 1).blk t).view.emb (ix2 p j)) = _
  obtain ⟨e00, e01, e10, e11, e20, e21, e30, e31, e40, e41, e50, e51⟩ := idx_facts t
  refine congrArg (V m c main_arg1) (funext fun a => Fin.ext ?_)
  match a with
  | ⟨0, _⟩ => show win0_1.index t (0 : Fin 2) * 256 + 1 * p.val = 256 * t.val + p.val; rw [e10]; omega
  | ⟨1, _⟩ => show win0_1.index t (1 : Fin 2) * 64 + 1 * j.val = j.val; rw [e11]; omega

theorem iblk2_at (c : Dev nD) (t : Fin cfg0.N) (p : Fin 256) (j : Fin 64) :
    iblk m c 2 t (ix2 p j) = (V m c main_arg2 : Tok) (ix2 (blockRow (256 * t.val) (hlo t.val t.isLt) p) j) := by
  show V m c main_arg2 (((cfg0.win 2).blk t).view.emb (ix2 p j)) = _
  obtain ⟨e00, e01, e10, e11, e20, e21, e30, e31, e40, e41, e50, e51⟩ := idx_facts t
  refine congrArg (V m c main_arg2) (funext fun a => Fin.ext ?_)
  match a with
  | ⟨0, _⟩ => show win0_2.index t (0 : Fin 2) * 256 + 1 * p.val = 256 * t.val + p.val; rw [e20]; omega
  | ⟨1, _⟩ => show win0_2.index t (1 : Fin 2) * 64 + 1 * j.val = j.val; rw [e21]; omega

theorem iblk3_at (c : Dev nD) (t : Fin cfg0.N) (i : S4096x64.Idx) :
    iblk m c 3 t i = (V m c main_arg3 : Mem) i := by
  show V m c main_arg3 (((cfg0.win 3).blk t).view.emb i) = _
  obtain ⟨e00, e01, e10, e11, e20, e21, e30, e31, e40, e41, e50, e51⟩ := idx_facts t
  refine congrArg (V m c main_arg3) (funext fun a => Fin.ext ?_)
  match a with
  | ⟨0, _⟩ => show win0_3.index t (0 : Fin 2) * 4096 + 1 * (i 0).val = (i 0).val; rw [e30]; omega
  | ⟨1, _⟩ => show win0_3.index t (1 : Fin 2) * 64 + 1 * (i 1).val = (i 1).val; rw [e31]; omega

theorem iblk4_at (c : Dev nD) (t : Fin cfg0.N) (i : S4096x64.Idx) :
    iblk m c 4 t i = (V m c main_arg4 : Mem) i := by
  show V m c main_arg4 (((cfg0.win 4).blk t).view.emb i) = _
  obtain ⟨e00, e01, e10, e11, e20, e21, e30, e31, e40, e41, e50, e51⟩ := idx_facts t
  refine congrArg (V m c main_arg4) (funext fun a => Fin.ext ?_)
  match a with
  | ⟨0, _⟩ => show win0_4.index t (0 : Fin 2) * 4096 + 1 * (i 0).val = (i 0).val; rw [e40]; omega
  | ⟨1, _⟩ => show win0_4.index t (1 : Fin 2) * 64 + 1 * (i 1).val = (i 1).val; rw [e41]; omega

theorem stateA_congr (k v : Tok) (Km Vm : Mem) {lo lo' : ℕ} (e : lo = lo') (mm : Fin 4096) (cc : Fin 64) :
    stateA k v Km Vm lo mm cc = stateA k v Km Vm lo' mm cc := by rw [e]

/-- All five argument arrays hold real numbers. -/
def RealArgs (c : Dev nD) : Prop :=
  (∀ i, IsR ((V m c main_arg0 : Tok) i)) ∧ (∀ i, IsR ((V m c main_arg1 : Tok) i)) ∧ (∀ i, IsR ((V m c main_arg2 : Tok) i))
    ∧ (∀ i, IsR ((V m c main_arg3 : Mem) i)) ∧ (∀ i, IsR ((V m c main_arg4 : Mem) i))

/-- THE INDUCTION over the grid points: after point n the output block holds the result's rows of that point and
    the scratch the state of all rows up to and including them. -/
theorem outs_eq (c : Dev nD) (hr : RealArgs m c) : ∀ (n : ℕ) (h : n < cfg0.N),
    (∀ (p : Fin 256) (cc : Fin 64), (outsAt0 m c n h).1 (ix2 p cc)
        = resA (V m c main_arg0 : Tok) (V m c main_arg1 : Tok) (V m c main_arg2 : Tok) (V m c main_arg3 : Mem) (V m c main_arg4 : Mem) (blockRow (256 * n) (hlo n h) p) cc)
    ∧ (∀ (mm : Fin 4096) (cc : Fin 64), (outsAt0 m c n h).2 (ix2 mm cc)
        = stateA (V m c main_arg1 : Tok) (V m c main_arg2 : Tok) (V m c main_arg3 : Mem) (V m c main_arg4 : Mem) (256 * (n + 1)) mm cc)
  | 0, h => by
    obtain ⟨hq, hk, hv, hK, hV⟩ := hr
    rw [outsAt0_A m c ⟨0, h⟩ rfl]
    dsimp only
    rw [Pieces.out_A, Pieces.sout_A]
    have hS : ∀ (mm : Fin 4096) (cc : Fin 64), (k0_pay5 (F := Ideal)) (ix2 mm cc)
        = stateA (V m c main_arg1 : Tok) (V m c main_arg2 : Tok) (V m c main_arg3 : Mem) (V m c main_arg4 : Mem) (256 * 0) mm cc :=
      fun mm cc => (pay5_apply _).trans (stateA_zero _ _ _ _ mm cc).symm
    refine ⟨fun p cc => ?_, fun mm cc => ?_⟩
    · exact out_step _ _ _ _ _ _ _ _ _ _ (256 * 0) (hlo 0 h) _ hq hk hv hK hV (iblk0_at m c ⟨0, h⟩) (iblk1_at m c ⟨0, h⟩)
        (iblk2_at m c ⟨0, h⟩) (iblk3_at m c ⟨0, h⟩) (iblk4_at m c ⟨0, h⟩) hS p cc
    · exact (state_step _ _ _ _ _ _ _ _ (256 * 0) (hlo 0 h) _ (iblk1_at m c ⟨0, h⟩) (iblk2_at m c ⟨0, h⟩)
        (iblk3_at m c ⟨0, h⟩) (iblk4_at m c ⟨0, h⟩) hS mm cc).trans (stateA_congr _ _ _ _ (by omega) mm cc)
  | n + 1, h => by
    have ih := (outs_eq c hr n (Nat.lt_of_succ_lt h)).2
    obtain ⟨hq, hk, hv, hK, hV⟩ := hr
    have hN : cfg0.N = 32 := N_0
    have hB : ¬(⟨n + 1, h⟩ : Fin cfg0.N).val % 32 = 0 := by dsimp only; omega
    rw [outsAt0_B m c ⟨n + 1, h⟩ hB]
    dsimp only
    rw [Pieces.out_B, Pieces.sout_B]
    have hS : ∀ (mm : Fin 4096) (cc : Fin 64), (outsAt0 m c (n + 1 - 1) (Nat.lt_of_le_of_lt (Nat.sub_le _ _) h)).2 (ix2 mm cc)
        = stateA (V m c main_arg1 : Tok) (V m c main_arg2 : Tok) (V m c main_arg3 : Mem) (V m c main_arg4 : Mem) (256 * (n + 1)) mm cc :=
      fun mm cc => ih mm cc
    refine ⟨fun p cc => ?_, fun mm cc => ?_⟩
    · exact out_step _ _ _ _ _ _ _ _ _ _ (256 * (n + 1)) (hlo (n + 1) h) _ hq hk hv hK hV (iblk0_at m c ⟨n + 1, h⟩)
        (iblk1_at m c ⟨n + 1, h⟩) (iblk2_at m c ⟨n + 1, h⟩) (iblk3_at m c ⟨n + 1, h⟩) (iblk4_at m c ⟨n + 1, h⟩) hS p cc
    · exact (state_step _ _ _ _ _ _ _ _ (256 * (n + 1)) (hlo (n + 1) h) _ (iblk1_at m c ⟨n + 1, h⟩) (iblk2_at m c ⟨n + 1, h⟩)
        (iblk3_at m c ⟨n + 1, h⟩) (iblk4_at m c ⟨n + 1, h⟩) hS mm cc).trans (stateA_congr _ _ _ _ (by omega) mm cc)

/-- The result array of the argument arrays as the region finds them. -/
abbrev result (c : Dev nD) : Tok := resArr (V m c main_arg0 : Tok) (V m c main_arg1 : Tok) (V m c main_arg2 : Tok) (V m c main_arg3 : Mem) (V m c main_arg4 : Mem)

/-- WHAT POINT t WRITES BACK is its block of the result array. -/
theorem flushed_eq (c : Dev nD) (hr : RealArgs m c) (t : Fin cfg0.N) :
    (dats m 0 c).flushed 5 t = ((cfg0.win 5).blk t).view.read (Elt Ideal) (result m c) := by
  show (cfg0.win 5).cut (grid0.coords t) ((dats m 0 c).after 5 t) = _
  rw [after0_5]
  funext j
  show (outsAt0 m c t.val t.isLt).1 j = result m c (((cfg0.win 5).blk t).view.emb j)
  have hj : j = ix2 (⟨(j 0).val, (j 0).isLt⟩ : Fin 256) (⟨(j 1).val, (j 1).isLt⟩ : Fin 64) :=
    funext fun a => Fin.ext (by match a with | ⟨0, _⟩ => rfl | ⟨1, _⟩ => rfl)
  obtain ⟨e00, e01, e10, e11, e20, e21, e30, e31, e40, e41, e50, e51⟩ := idx_facts t
  have e : ((cfg0.win 5).blk t).view.emb j
      = ix2 (blockRow (256 * t.val) (hlo t.val t.isLt) (⟨(j 0).val, (j 0).isLt⟩ : Fin 256)) (⟨(j 1).val, (j 1).isLt⟩ : Fin 64) :=
    funext fun a => Fin.ext (by
      match a with
      | ⟨0, _⟩ => show win0_5.index t (0 : Fin 2) * 256 + 1 * (j 0).val = 256 * t.val + (j 0).val; rw [e50]; omega
      | ⟨1, _⟩ => show win0_5.index t (1 : Fin 2) * 64 + 1 * (j 1).val = (j 1).val; rw [e51]; omega)
  rw [e]
  exact (congrArg (outsAt0 m c t.val t.isLt).1 hj).trans
    ((outs_eq m c hr t.val t.isLt).1 (⟨(j 0).val, (j 0).isLt⟩ : Fin 256) (⟨(j 1).val, (j 1).isLt⟩ : Fin 64))

/-- An index of the array is in point t's block iff each coordinate is in the block's range on its axis. -/
theorem mem_blk (t : Fin cfg0.N) (i : S8192x64.Idx) :
    i ∈ ((cfg0.win 5).blk t).view.set ↔ ∀ a : Fin 2, win0_5.index t a * S256x64.size a ≤ (i a).val ∧ (i a).val < win0_5.index t a * S256x64.size a + S256x64.size a := by
  show i ∈ ((View.whole main_v0).slice (win0_5.rect t)).set ↔ _
  rw [View.set_slice_whole, Rect.mem_set_unit]
  exact Iff.rfl

/-- THE ARRAY after the run is the result array: the blocks of the 32 points cover it. -/
theorem final (c : Dev nD) (hr : RealArgs m c) : (dats m 0 c).arrAt 5 cfg0.N = result m c :=
  (dats m 0 c).arrAt_eq_of_cover 5 (result m c) (fun t _ => flushed_eq m c hr t) fun i => by
    have hi0 : (i 0).val < 8192 := (i 0).isLt
    have hi1 : (i 1).val < 64 := (i 1).isLt
    have hN : cfg0.N = 32 := N_0
    refine ⟨⟨(i 0).val / 256, by omega⟩, flush0_5 _, ?_⟩
    rw [mem_blk]
    obtain ⟨e00, e01, e10, e11, e20, e21, e30, e31, e40, e41, e50, e51⟩ := idx_facts ⟨(i 0).val / 256, by omega⟩
    intro a
    match a with
    | ⟨0, _⟩ =>
      show win0_5.index _ (0 : Fin 2) * 256 ≤ (i 0).val ∧ (i 0).val < win0_5.index _ (0 : Fin 2) * 256 + 256
      rw [e50]; dsimp only; omega
    | ⟨1, _⟩ =>
      show win0_5.index _ (1 : Fin 2) * 64 ≤ (i 1).val ∧ (i 1).val < win0_5.index _ (1 : Fin 2) * 64 + 64
      rw [e51]; omega

end Cert.KernelIdeal.KValue

end
-- ==== Proof.LibIndexExt.lean ====
/-
  Two multi-indices of a literal-rank shape are equal as soon as their coordinates are equal as natural numbers:
  the form in which an index computed by a chain of layout operations is compared with one written by coordinates.
-/
import Idealize.ShloMosaic.Lib.ValueIdx

namespace Cert.IndexExt

open Idealize.ShloMosaic

/-- Rank 1. -/
theorem ext1 {n0 : Nat} {i j : (⟨1, ![n0]⟩ : Shape).Idx} (h0 : (i 0).val = (j 0).val) : i = j :=
  funext fun a => Fin.ext (by match a with | ⟨0, _⟩ => exact h0)

/-- Rank 2. -/
theorem ext2 {n0 n1 : Nat} {i j : (⟨2, ![n0, n1]⟩ : Shape).Idx} (h0 : (i 0).val = (j 0).val)
    (h1 : (i 1).val = (j 1).val) : i = j :=
  funext fun a => Fin.ext (by match a with | ⟨0, _⟩ => exact h0 | ⟨1, _⟩ => exact h1)

/-- Rank 3. -/
theorem ext3 {n0 n1 n2 : Nat} {i j : (⟨3, ![n0, n1, n2]⟩ : Shape).Idx} (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-- Rank 4. -/
theorem ext4 {n0 n1 n2 n3 : Nat} {i j : (⟨4, ![n0, n1, n2, n3]⟩ : Shape).Idx} (h0 : (i 0).val = (j 0).val)
    (h1 : (i 1).val = (j 1).val) (h2 : (i 2).val = (j 2).val) (h3 : (i 3).val = (j 3).val) : i = j :=
  funext fun a => Fin.ext (by
    match a with | ⟨0, _⟩ => exact h0 | ⟨1, _⟩ => exact h1 | ⟨2, _⟩ => exact h2 | ⟨3, _⟩ => exact h3)

end Cert.IndexExt
-- ==== Proof.RefValue.lean ====
/-
  The reference program's result, read entry by entry, is the result array of AttnArrays.

  Its operations in order: the logits of the key rows against the transposed memory keys, scaled by the word of 1/8;
  their row maxima from −∞; the exponentials of the shifted logits and their row sums from zero; the quotient — the
  key rows' attention weights; the same for the query rows; the token-by-token product of the two weight arrays;
  the strictly lower triangle of it (row number plus the word −1, compared signed with the column number); the error
  array; and the value product less the product of the triangle with the error array.
-/
import proofs.«128861_j49134425866264_1_alg».proof.Proof.ReadP
import proofs.«128861_j49134425866264_1_alg».proof.Proof.AttnArrays
import proofs.«128861_j49134425866264_1_alg».proof.Proof.LibSlabLayout
import proofs.«128861_j49134425866264_1_alg».proof.Proof.LibIndexExt
import proofs.«128861_j49134425866264_1_alg».proof.Proof.LibMaskWords

noncomputable section

namespace Cert.ReferenceIdeal.RefValue

open Cert.ReferenceIdeal Cert.ReferenceIdeal.Gen Cert.ReferenceIdeal.ReadP
open Idealize.ShloMosaic Idealize.ShloMosaic.ValueIdx Cert.Attn

/-- The word 0xFF800000 denotes −∞. -/
theorem ofBits_ninf : Ideal.ofBits .f32 0xFF800000#32 = ⊥ := by
  simp [Ideal.ofBits, Ideal.ieee]

theorem rowMax_def {n : ℕ} (l : Fin n → EReal) : rowMax l = max ⊥ ((Finset.univ : Finset (Fin n)).fold max ⊥ l) := rfl
theorem soft_def {n : ℕ} (l : Fin n → EReal) (m : Fin n) :
    soft l m = Ideal.div (Ideal.exp (l m - rowMax l)) (∑ j : Fin n, Ideal.exp (l j - rowMax l)) := rfl

/-- The host's reduction by maximum along the rows of an 8192 × 4096 array, at row t: the fold of max over the row. -/
theorem hostRowMax (x : FVec Ideal S8192x4096 .f32) (init : S_.Idx → Ideal .f32) (t : Fin 8192) :
    Host.reduce FloatOps.maximumf x init Facts₀.reducesTo_S8192x4096_S8192_d1 Facts₀.h_S_ (ix1 t)
      = (Finset.univ : Finset (Fin 4096)).fold max (init (Shape.Idx.first Facts₀.h_S_)) (fun mm => x (ix2 t mm)) := by
  have h : S8192x4096.Reduces [(1 : Fin 2)] S8192 := by decide
  refine (Host.reduce_eq_fold_single FloatOps.maximumf x init Facts₀.reducesTo_S8192x4096_S8192_d1 h Facts₀.h_S_ (ix1 t)).trans ?_
  have e : (x ∘ h.lift (ix1 t)) = fun mm : Fin 4096 => x (ix2 t mm) :=
    funext fun mm => congrArg x (Cert.SlabLayout.lift_row (a := 8192) (b := 4096) h t mm)
  exact congrArg (fun f => Finset.fold max (init (Shape.Idx.first Facts₀.h_S_)) f (Finset.univ : Finset (Fin 4096))) e

/-- The logits of the key rows. -/
theorem v3_at (x1 : Tok) (x3 : Mem) (t : Fin 8192) (mm : Fin 4096) :
    val_main_v3 (F := Ideal) x1 x3 (ix2 t mm) = lgA x1 x3 t mm := by
  rw [val_main_v3_apply, val_main_v1_apply, val_main_v2_apply, val_main_cst_apply, lgA_def]
  refine congrArg (· * Ideal.ofBits .f32 0x3E000000#32) (Finset.sum_congr rfl fun j _ => ?_)
  rw [val_main_v0_apply]
  exact congrArg₂ (· * ·) (congrArg x1 (Cert.IndexExt.ext2 rfl rfl)) (congrArg x3 (Cert.IndexExt.ext2 rfl rfl))

/-- The row maximum, spread back over the row. -/
theorem v8_at (x1 : Tok) (x3 : Mem) (t : Fin 8192) (mm : Fin 4096) :
    val_main_v8 (F := Ideal) x1 x3 (ix2 t mm) = rowMax (lgA x1 x3 t) := by
  rw [val_main_v8_apply, val_main_v7_apply, val_main_v6_apply, val_main_v5_apply, val_main_cst_1_apply]
  have e : idx_main_v7 (idx_main_v8 (ix2 t mm)) = ix1 t := Cert.IndexExt.ext1 rfl
  rw [e]
  unfold val_main_v4
  rw [hostRowMax, val_main_cst_0_apply]
  show max (Ideal.ofBits .f32 0xFF800000#32) (Finset.fold max (Ideal.ofBits .f32 0xFF800000#32) _ Finset.univ) = _
  rw [ofBits_ninf, rowMax_def]
  exact congrArg (fun f => max ⊥ (Finset.fold max ⊥ f Finset.univ)) (funext fun m' => v3_at x1 x3 t m')

/-- The exponentials of the row-shifted logits. -/
theorem v10_at (x1 : Tok) (x3 : Mem) (t : Fin 8192) (mm : Fin 4096) :
    val_main_v10 (F := Ideal) x1 x3 (ix2 t mm) = Ideal.exp (lgA x1 x3 t mm - rowMax (lgA x1 x3 t)) := by
  rw [val_main_v10_apply, val_main_v9_apply, v3_at, v8_at]
  rfl

/-- The attention weights of the key rows. -/
theorem v14_at (x1 : Tok) (x3 : Mem) (t : Fin 8192) (mm : Fin 4096) :
    val_main_v14 (F := Ideal) x1 x3 (ix2 t mm) = attA x1 x3 t mm := by
  rw [val_main_v14_apply, val_main_v13_apply, val_main_v12_apply, val_main_v11_apply, val_main_cst_2_apply, v10_at,
    attA_def, soft_def]
  show Ideal.div _ (Ideal.ofBits .f32 0x00000000#32 + _) = _
  rw [Ideal.ofBits_zero_f32, zero_add]
  refine congrArg (Ideal.div _) (Finset.sum_congr rfl fun j _ => ?_)
  have e : idx_main_v11 (idx_main_v12 (idx_main_v13 (ix2 t mm))) j = ix2 t j := Cert.IndexExt.ext2 rfl rfl
  rw [e, v10_at]

/-- The logits of the query rows. -/
theorem v18_at (x0 : Tok) (x3 : Mem) (t : Fin 8192) (mm : Fin 4096) :
    val_main_v18 (F := Ideal) x0 x3 (ix2 t mm) = lgA x0 x3 t mm := by
  rw [val_main_v18_apply, val_main_v16_apply, val_main_v17_apply, val_main_cst_3_apply, lgA_def]
  refine congrArg (· * Ideal.ofBits .f32 0x3E000000#32) (Finset.sum_congr rfl fun j _ => ?_)
  rw [val_main_v15_apply]
  exact congrArg₂ (· * ·) (congrArg x0 (Cert.IndexExt.ext2 rfl rfl)) (congrArg x3 (Cert.IndexExt.ext2 rfl rfl))

/-- The row maximum, spread back over the row. -/
theorem v23_at (x0 : Tok) (x3 : Mem) (t : Fin 8192) (mm : Fin 4096) :
    val_main_v23 (F := Ideal) x0 x3 (ix2 t mm) = rowMax (lgA x0 x3 t) := by
  rw [val_main_v23_apply, val_main_v22_apply, val_main_v21_apply, val_main_v20_apply, val_main_cst_5_apply]
  have e : idx_main_v22 (idx_main_v23 (ix2 t mm)) = ix1 t := Cert.IndexExt.ext1 rfl
  rw [e]
  unfold val_main_v19
  rw [hostRowMax, val_main_cst_4_apply]
  show max (Ideal.ofBits .f32 0xFF800000#32) (Finset.fold max (Ideal.ofBits .f32 0xFF800000#32) _ Finset.univ) = _
  rw [ofBits_ninf, rowMax_def]
  exact congrArg (fun f => max ⊥ (Finset.fold max ⊥ f Finset.univ)) (funext fun m' => v18_at x0 x3 t m')

/-- The exponentials of the row-shifted logits. -/
theorem v25_at (x0 : Tok) (x3 : Mem) (t : Fin 8192) (mm : Fin 4096) :
    val_main_v25 (F := Ideal) x0 x3 (ix2 t mm) = Ideal.exp (lgA x0 x3 t mm - rowMax (lgA x0 x3 t)) := by
  rw [val_main_v25_apply, val_main_v24_apply, v18_at, v23_at]
  rfl

/-- The attention weights of the query rows. -/
theorem v29_at (x0 : Tok) (x3 : Mem) (t : Fin 8192) (mm : Fin 4096) :
    val_main_v29 (F := Ideal) x0 x3 (ix2 t mm) = attA x0 x3 t mm := by
  rw [val_main_v29_apply, val_main_v28_apply, val_main_v27_apply, val_main_v26_apply, val_main_cst_6_apply, v25_at,
    attA_def, soft_def]
  show Ideal.div _ (Ideal.ofBits .f32 0x00000000#32 + _) = _
  rw [Ideal.ofBits_zero_f32, zero_add]
  refine congrArg (Ideal.div _) (Finset.sum_congr rfl fun j _ => ?_)
  have e : idx_main_v26 (idx_main_v27 (idx_main_v28 (ix2 t mm))) j = ix2 t j := Cert.IndexExt.ext2 rfl rfl
  rw [e, v25_at]

/-- The error array. -/
theorem v34_at (x1 x2 : Tok) (x3 x4 : Mem) (s : Fin 8192) (c : Fin 64) :
    val_main_v34 (F := Ideal) x1 x2 x3 x4 (ix2 s c) = errA x1 x2 x3 x4 s c := by
  rw [val_main_v34_apply, val_main_v33_apply, errA_def]
  refine congrArg (· - x2 (ix2 s c)) (Finset.sum_congr rfl fun mm _ => ?_)
  have e1 : lidx_main_v33 (ix2 s c) mm = ix2 s mm := Cert.IndexExt.ext2 rfl rfl
  have e2 : ridx_main_v33 (ix2 s c) mm = ix2 mm c := Cert.IndexExt.ext2 rfl rfl
  rw [e1, e2, v14_at]

/-- The strictly lower triangle of the token-by-token products. -/
theorem v32_at (x0 x1 : Tok) (x3 : Mem) (t s : Fin 8192) :
    val_main_v32 (F := Ideal) x0 x1 x3 (ix2 t s)
      = if s.val < t.val then ∑ mm : Fin 4096, attA x0 x3 t mm * attA x1 x3 s mm else 0 := by
  rw [val_main_v32_apply, val_main_call0_v4_apply, val_main_call0_v2_apply, val_main_call0_v0_apply,
    val_main_call0_v1_apply, val_main_call0_c_apply, val_main_call0_v3_apply, val_main_call0_v5_apply,
    val_main_call0_cst_apply, val_main_v31_apply]
  have ht := t.isLt
  have hs := s.isLt
  refine (Cert.MaskWords.select_sge_pred t.val s.val (by omega) (by omega) _ _).trans ?_
  by_cases h : s.val < t.val
  · rw [if_pos h, if_pos h]
    refine Finset.sum_congr rfl fun mm _ => ?_
    have e1 : lidx_main_v31 (ix2 t s) mm = ix2 t mm := Cert.IndexExt.ext2 rfl rfl
    have e2 : idx_main_v30 (ridx_main_v31 (ix2 t s) mm) = ix2 s mm := Cert.IndexExt.ext2 rfl rfl
    rw [val_main_v30_apply, e1, e2, v29_at, v14_at]
  · rw [if_neg h, if_neg h]
    exact Ideal.ofBits_zero_f32

/-- THE REFERENCE'S RESULT is the result array. -/
theorem result_eq (x0 x1 x2 : Tok) (x3 x4 : Mem) :
    val_main_v37 (F := Ideal) x0 x1 x2 x3 x4 = resArr x0 x1 x2 x3 x4 := by
  funext i
  obtain ⟨t, c, rfl⟩ : ∃ (t : Fin 8192) (c : Fin 64), i = ix2 t c := ⟨i 0, i 1, eq_ix2 i⟩
  rw [resArr_ix2, val_main_v37_apply, val_main_v35_apply, val_main_v36_apply, resA_def]
  refine congrArg₂ (· - ·) (Finset.sum_congr rfl fun mm _ => ?_) (Finset.sum_congr rfl fun s _ => ?_)
  · have e1 : lidx_main_v35 (ix2 t c) mm = ix2 t mm := Cert.IndexExt.ext2 rfl rfl
    have e2 : ridx_main_v35 (ix2 t c) mm = ix2 mm c := Cert.IndexExt.ext2 rfl rfl
    rw [e1, e2, v29_at]
  · have e1 : lidx_main_v36 (ix2 t c) s = ix2 t s := Cert.IndexExt.ext2 rfl rfl
    have e2 : ridx_main_v36 (ix2 t c) s = ix2 s c := Cert.IndexExt.ext2 rfl rfl
    rw [e1, e2, v32_at, v34_at]

end Cert.ReferenceIdeal.RefValue

end
-- ==== Proof.LibFiniteInputs.lean ====
/-
  A reusable lemma: what the precondition "every entry is finite" says over the extended reals.

  The precondition is written as all(|x| < +∞): the entrywise absolute value compared, by the ordered "less than", with
  the splat of the float pattern of +∞, and the comparisons reduced by "and" over every axis from the constant true.
  Over the extended reals the pattern of +∞ denotes ⊤, the absolute value of x is max x (−x), and max x (−x) < ⊤ holds
  exactly when x is neither ⊤ nor ⊥: so the reduction being true says that every entry is a real number.
-/
import proofs.«128861_j49134425866264_1_alg».proof.Proof.LibRealEntries
import Idealize.ShloMosaic.Lib.ReduceAll

noncomputable section

namespace Cert.RealEntries

open Idealize.ShloMosaic

/-- The float pattern of +∞ denotes ⊤. -/
theorem ofBits_inf : Ideal.ofBits .f32 0x7F800000#32 = ⊤ := by
  simp [Ideal.ofBits, Ideal.ieee]

/-- |x| < ⊤ says that x is a real number. -/
theorem isR_of_abs_lt_top (x : EReal) (h : Ideal.cmp .olt (max x (-x)) ⊤ = 1#1) : IsR x := by
  have h' : max x (-x) < ⊤ := by
    have h1 : Ideal.cmp .olt (max x (-x)) ⊤ = BitVec.ofBool (decide (max x (-x) < ⊤)) := rfl
    rw [h1] at h
    by_contra hn
    rw [decide_eq_false hn] at h
    exact absurd h (by decide)
  induction x using EReal.rec with
  | bot => simp at h'
  | coe r => exact ⟨r, rfl⟩
  | top => simp at h'

/-- all(|x| < +∞) reduced over every axis is true: every entry of x is a real number. -/
theorem allReal_of_all_finite {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf x) (broadcastInDim s ![] hb (constant (F := Ideal) ⟨0, ![]⟩ .f32 0x7F800000#32))) init h hu j = 1#1) :
    AllReal x := fun i => by
  have hi := Host.reduce_andi_all _ init h hu j e i
  refine isR_of_abs_lt_top (x i) ?_
  rw [← ofBits_inf]
  exact hi

end Cert.RealEntries

end
-- ==== Proof.FiniteInputs.lean ====
/-
  The precondition, decoded: every entry of the five argument arrays is a real number.

  The precondition is the conjunction, over the five arrays, of "all entries satisfy |x| < +∞", each reduced by
  `and` over both axes to one bit. A conjunction of bits is one iff each is; a reduction by `and` is one iff every
  entry's bit is; and an extended real with |x| < +∞ is a real number.
-/
import proofs.«128861_j49134425866264_1_alg».proof.Pre_finite_inputs
import proofs.«128861_j49134425866264_1_alg».proof.Proof.Gen.Pre_finite_inputs
import proofs.«128861_j49134425866264_1_alg».proof.Proof.LibFiniteInputs
import Idealize.ShloMosaic.Lib.Affine

noncomputable section

namespace Cert.Pre_finite_inputs.Decoded

open Idealize.ShloMosaic Cert.RealEntries Cert.Pre_finite_inputs

instance : Subsingleton S_.Idx := ⟨fun a b => funext fun d => d.elim0⟩

/-- All ones of the precondition: the five arrays hold real numbers. -/
theorem allReal_of_pre [Facts] (a0 a1 a2 : FVec Ideal S8192x64 .f32) (a3 a4 : FVec Ideal S4096x64 .f32)
    (h : fn (F := Ideal) a0 a1 a2 a3 a4 = fun _ => 1#1) :
    AllReal a0 ∧ AllReal a1 ∧ AllReal a2 ∧ AllReal a3 ∧ AllReal a4 := by
  have h0 := congrFun h ValueIdx.ix0
  dsimp only [fn, fn_part1] at h0
  obtain ⟨h0123, h4⟩ := IntOp.andi_eq_one.mp h0
  obtain ⟨h012, h3⟩ := IntOp.andi_eq_one.mp h0123
  obtain ⟨h01, h2⟩ := IntOp.andi_eq_one.mp h012
  obtain ⟨h0', h1⟩ := IntOp.andi_eq_one.mp h01
  exact ⟨allReal_of_all_finite a0 _ _ _ _ _ h0', allReal_of_all_finite a1 _ _ _ _ _ h1,
    allReal_of_all_finite a2 _ _ _ _ _ h2, allReal_of_all_finite a3 _ _ _ _ _ h3,
    allReal_of_all_finite a4 _ _ _ _ _ h4⟩

end Cert.Pre_finite_inputs.Decoded

end
-- ==== Proof.lean ====
/-
  The proof of `Cert.Claim`: the kernel and its idealization run and leave their arguments unchanged, the reference
  runs, the idealization rewrote nothing, and over the extended reals the idealized kernel and the idealized reference
  end with equal results from memories that agree on finite arguments.

  The mathematics. Both programs compute, from token arrays q, k, v (8192 × 64) and memory arrays K, V (4096 × 64),
      a_k = softmax_rows (k·Kᵀ / 8),   a_q = softmax_rows (q·Kᵀ / 8),   d = a_k·V − v,
      r   = a_q·V − strictly_lower (a_q·a_kᵀ)·d.
  The reference forms the 8192 × 8192 triangle whole. The kernel walks the token rows in 32 blocks of 256, keeps in a
  scratch the state S = Σ over earlier rows s of a_k[s,·]ᵀ d[s,·], and for a block writes
      r_block = (a_q·V − strictly_lower_in_block (a_q·a_kᵀ)·d_block) − a_q·S.
  The two agree because, for real entries, the rows before the block contribute (a_q·a_kᵀ)·d = a_q·(a_kᵀ·d)
  (associativity of real matrix products; LibSoftmaxTriangle, result_split), and the entries ARE real: the precondition makes the
  inputs finite, and a softmax row of real numbers is a row of real numbers. The kernel's array after its run is read
  off its generated frame run by induction over the grid points (KernelValue), the reference's off its run read one
  operation at a time (RefValue); both are the one function `Cert.Attn.resArr` of the argument arrays.
-/
import proofs.«128861_j49134425866264_1_alg».proof.Defs
import proofs.«128861_j49134425866264_1_alg».proof.Proof.Gen.Kernel
import proofs.«128861_j49134425866264_1_alg».proof.Proof.Gen.Kernel.Skeleton
import proofs.«128861_j49134425866264_1_alg».proof.Proof.Gen.Kernel.Launch
import proofs.«128861_j49134425866264_1_alg».proof.Proof.Gen.Kernel.Points
import proofs.«128861_j49134425866264_1_alg».proof.Proof.Gen.Kernel.Frame
import proofs.«128861_j49134425866264_1_alg».proof.Proof.Gen.KernelIdeal
import proofs.«128861_j49134425866264_1_alg».proof.Proof.Gen.KernelIdeal.Skeleton
import proofs.«128861_j49134425866264_1_alg».proof.Proof.Gen.KernelIdeal.Launch
import proofs.«128861_j49134425866264_1_alg».proof.Proof.Gen.KernelIdeal.Points
import proofs.«128861_j49134425866264_1_alg».proof.Proof.Gen.KernelIdeal.Frame
import proofs.«128861_j49134425866264_1_alg».proof.Proof.Gen.ReferenceIdeal
import proofs.«128861_j49134425866264_1_alg».proof.Proof.Gen.Pre_finite_inputs
import proofs.«128861_j49134425866264_1_alg».proof.Proof.Gen.KernelIdeal.Value
import proofs.«128861_j49134425866264_1_alg».proof.Proof.KernelValue
import proofs.«128861_j49134425866264_1_alg».proof.Proof.RefValue
import proofs.«128861_j49134425866264_1_alg».proof.Proof.FiniteInputs
import Idealize.ShloMosaic.Adequacy
import Idealize.ShloMosaic.Init

noncomputable section

namespace Cert.Proof

open Idealize.ShloMosaic Idealize.ShloMosaic.TcCoe Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Over the extended reals the kernel's result array and the reference's are the one result array of the arguments,
    which are real numbers by the precondition. -/
theorem algebraic : Cert.algebraic_KernelIdeal_ReferenceIdeal := by
  intro m ρ m' ρ' hpre hagree
  have hreal : ∀ c, Cert.KernelIdeal.KValue.RealArgs m c := fun c => by
    obtain ⟨r0, r1, r2, r3, r4⟩ := Cert.Pre_finite_inputs.Decoded.allReal_of_pre _ _ _ _ _ (hpre c)
    exact ⟨r0, r1, r2, r3, r4⟩
  refine ⟨fun c => Cert.KernelIdeal.KValue.result m c, ?_, ?_⟩
  · exact (θ_run Cert.KernelIdeal.defs _ _).mono
      (fun r h c => ⟨(h c).1.trans (Cert.KernelIdeal.KValue.final m c (hreal c)), (h c).2⟩)
      (Cert.KernelIdeal.Value.run_blocks m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v37_eq, (hagree c).1, (hagree c).2.1, (hagree c).2.2.1, (hagree c).2.2.2.1,
      (hagree c).2.2.2.2]
    exact Cert.ReferenceIdeal.RefValue.result_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
